-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1536 : Shape := ⟨2, ![8192, 1536]⟩
abbrev S1536x1536 : Shape := ⟨2, ![1536, 1536]⟩
abbrev S1536 : Shape := ⟨1, ![1536]⟩
abbrev S1x1536 : Shape := ⟨2, ![1, 1536]⟩
abbrev S1 : Shape := ⟨1, ![1]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_
  bcast_S_S1x1536 : S_.BroadcastsInDim S1x1536 (![] : Fin 0 → Fin S1x1536.rank)
  reducesTo_S1x1536_S_d0_1 : S1x1536.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1536 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  main_v38

def fn_part1 {F : FTy → Type} [FloatOps F] (main_arg4 : FVec F S1x1536 .f32) (main_arg5 : FVec F S1 .f32) (main_arg6 : FVec F S1536x1536 .f32) (main_arg7 : FVec F S1536 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1x1536 .f32 := Host.absf main_arg4
  let main_cst_6 : FVec F S_ .f32 := constant S_ .f32 0x7F800000#32
  let main_v20 : FVec F S1x1536 .f32 := broadcastInDim S1x1536 ![] bcast_S_S1x1536 main_cst_6
  let main_v21 : IVec S1x1536 1 := cmpf .olt main_v19 main_v20
  let main_c_7 : IVec S_ 1 := constantI S_ 1 1#1
  let main_v22 : IVec S_ 1 := (fun x v => Host.reduce IntOp.andi x v reducesTo_S1x1536_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1536x1536 .f32 := Host.absf main_arg6
  let main_cst_10 : FVec F S_ .f32 := constant S_ .f32 0x7F800000#32
  let main_v30 : FVec F S1536x1536 .f32 := broadcastInDim S1536x1536 ![] bcast_S_S1536x1536 main_cst_10
  let main_v31 : IVec S1536x1536 1 := cmpf .olt main_v29 main_v30
  let main_c_11 : IVec S_ 1 := constantI S_ 1 1#1
  let main_v32 : IVec S_ 1 := (fun x v => Host.reduce IntOp.andi x v reducesTo_S1536x1536_S_d0_1 h_S_) main_v31 main_c_11
  let main_v33 : IVec S_ 1 := andi main_v28 main_v32
  fn_part2 (F := F) main_arg7 main_v33

def fn {F : FTy → Type} [FloatOps F] (main_arg0 : FVec F S8192x1536 .f32) (main_arg1 : FVec F S8192x1536 .f32) (main_arg2 : FVec F S1536x1536 .f32) (main_arg3 : FVec F S1536 .f32) (main_arg4 : FVec F S1x1536 .f32) (main_arg5 : FVec F S1 .f32) (main_arg6 : FVec F S1536x1536 .f32) (main_arg7 : FVec F S1536 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x1536 .f32 := Host.absf main_arg1
  let main_cst_0 : FVec F S_ .f32 := constant S_ .f32 0x7F800000#32
  let main_v5 : FVec F S8192x1536 .f32 := broadcastInDim S8192x1536 ![] bcast_S_S8192x1536 main_cst_0
  let main_v6 : IVec S8192x1536 1 := cmpf .olt main_v4 main_v5
  let main_c_1 : IVec S_ 1 := constantI S_ 1 1#1
  let main_v7 : IVec S_ 1 := (fun x v => Host.reduce IntOp.andi x v reducesTo_S8192x1536_S_d0_1 h_S_) main_v6 main_c_1
  let main_v8 : IVec S_ 1 := andi main_v3 main_v7
  let main_v9 : FVec F S1536x1536 .f32 := Host.absf main_arg2
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  let main_c_3 : IVec S_ 1 := constantI S_ 1 1#1
  let main_v12 : IVec S_ 1 := (fun x v => Host.reduce IntOp.andi x v reducesTo_S1536x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_arg7 main_v13 main_v16
-- ==== Kernel.lean ====
abbrev S8192x1536 : Shape := ⟨2, ![8192, 1536]⟩
abbrev S1536x1536 : Shape := ⟨2, ![1536, 1536]⟩
abbrev S1536 : Shape := ⟨1, ![1536]⟩
abbrev S1x1536 : Shape := ⟨2, ![1, 1536]⟩
abbrev S1 : Shape := ⟨1, ![1]⟩
abbrev S8192x512x3 : Shape := ⟨3, ![8192, 512, 3]⟩
abbrev S8192x3x512 : Shape := ⟨3, ![8192, 3, 512]⟩
abbrev S512x3x1536 : Shape := ⟨3, ![512, 3, 1536]⟩
abbrev S3x512x1536 : Shape := ⟨3, ![3, 512, 1536]⟩
abbrev S512x3 : Shape := ⟨2, ![512, 3]⟩
abbrev S3x512 : Shape := ⟨2, ![3, 512]⟩
abbrev S1536x3072 : Shape := ⟨2, ![1536, 3072]⟩
abbrev S3072 : Shape := ⟨1, ![3072]⟩
abbrev S1x3072 : Shape := ⟨2, ![1, 3072]⟩
abbrev S1x1 : Shape := ⟨2, ![1, 1]⟩
abbrev S256x1536 : Shape := ⟨2, ![256, 1536]⟩
abbrev S256x3072 : Shape := ⟨2, ![256, 3072]⟩
abbrev S256 : Shape := ⟨1, ![256]⟩
abbrev S256x1 : Shape := ⟨2, ![256, 1]⟩
abbrev S256x512 : Shape := ⟨2, ![256, 512]⟩

abbrev nBuf : Space → Nat
  | .hbm => 35
  | .vmem => 10
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1536x1536, .f32⟩
  | .hbm, ⟨3, _⟩ => ⟨S1536, .f32⟩
  | .hbm, ⟨4, _⟩ => ⟨S1x1536, .f32⟩
  | .hbm, ⟨5, _⟩ => ⟨S1, .f32⟩
  | .hbm, ⟨6, _⟩ => ⟨S1536x1536, .f32⟩
  | .hbm, ⟨7, _⟩ => ⟨S1536, .f32⟩
  | .hbm, ⟨8, _⟩ => ⟨S8192x512x3, .f32⟩
  | .hbm, ⟨9, _⟩ => ⟨S8192x3x512, .f32⟩
  | .hbm, ⟨10, _⟩ => ⟨S8192x1536, .f32⟩
  | .hbm, ⟨11, _⟩ => ⟨S512x3x1536, .f32⟩
  | .hbm, ⟨12, _⟩ => ⟨S3x512x1536, .f32⟩
  | .hbm, ⟨13, _⟩ => ⟨S1536x1536, .f32⟩
  | .hbm, ⟨14, _⟩ => ⟨S512x3, .f32⟩
  | .hbm, ⟨15, _⟩ => ⟨S3x512, .f32⟩
  | .hbm, ⟨16, _⟩ => ⟨S1536, .f32⟩
  | .hbm, ⟨17, _⟩ => ⟨S512x3x1536, .f32⟩
  | .hbm, ⟨18, _⟩ => ⟨S3x512x1536, .f32⟩
  | .hbm, ⟨19, _⟩ => ⟨S1536x1536, .f32⟩
  | .hbm, ⟨20, _⟩ => ⟨S512x3, .f32⟩
  | .hbm, ⟨21, _⟩ => ⟨S3x512, .f32⟩
  | .hbm, ⟨22, _⟩ => ⟨S1536, .f32⟩
  | .hbm, ⟨23, _⟩ => ⟨S1536x1536, .f32⟩
  | .hbm, ⟨24, _⟩ => ⟨S1536x1536, .bf16⟩
  | .hbm, ⟨25, _⟩ => ⟨S1536x1536, .f32⟩
  | .hbm, ⟨26, _⟩ => ⟨S1536x1536, .bf16⟩
  | .hbm, ⟨27, _⟩ => ⟨S1536x3072, .bf16⟩
  | .hbm, ⟨28, _⟩ => ⟨S3072, .f32⟩
  | .hbm, ⟨29, _⟩ => ⟨S1x3072, .f32⟩
  | .hbm, ⟨30, _⟩ => ⟨S1x1, .f32⟩
  | .hbm, ⟨31, _⟩ => ⟨S8192x1536, .f32⟩
  | .hbm, ⟨32, _⟩ => ⟨S8192x3x512, .f32⟩
  | .hbm, ⟨33, _⟩ => ⟨S8192x512x3, .f32⟩
  | .hbm, ⟨34, _⟩ => ⟨S8192x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S1536x3072, .bf16⟩
  | .local _ .vmem, ⟨5, _⟩ => ⟨S1x3072, .f32⟩
  | .local _ .vmem, ⟨6, _⟩ => ⟨S1x1536, .f32⟩
  | .local _ .vmem, ⟨7, _⟩ => ⟨S1x1, .f32⟩
  | .local _ .vmem, ⟨8, _⟩ => ⟨S256x1536, .f32⟩
  | .local _ .vmem, ⟨9, _⟩ => ⟨S256x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x1536_S8192x512x3 : S8192x1536.ShapeCasts S8192x512x3
  transposes_S8192x512x3_S8192x3x512_0_2_1 : S8192x512x3.Transposes [0, 2, 1] S8192x3x512
  shapeCasts_S8192x3x512_S8192x1536 : S8192x3x512.ShapeCasts S8192x1536
  shapeCasts_S1536x1536_S512x3x1536 : S1536x1536.ShapeCasts S512x3x1536
  transposes_S512x3x1536_S3x512x1536_1_0_2 : S512x3x1536.Transposes [1, 0, 2] S3x512x1536
  shapeCasts_S3x512x1536_S1536x1536 : S3x512x1536.ShapeCasts S1536x1536
  shapeCasts_S1536_S512x3 : S1536.ShapeCasts S512x3
  transposes_S512x3_S3x512_1_0 : S512x3.Transposes [1, 0] S3x512
  shapeCasts_S3x512_S1536 : S3x512.ShapeCasts S1536
  transposes_S1536x1536_S1536x1536_1_0 : S1536x1536.Transposes [1, 0] S1536x1536
  bitsLt_bf16_f32 : FTy.bits .bf16 < FTy.bits .f32
  concatenates_S1536x1536_S1536x1536_S1536x3072_d1 : Shape.Concatenates [S1536x1536, S1536x1536] S1536x3072 1
  concatenates_S1536_S1536_S3072_d0 : Shape.Concatenates [S1536, S1536] S3072 0
  shapeCasts_S3072_S1x3072 : S3072.ShapeCasts S1x3072
  shapeCasts_S1_S1x1 : S1.ShapeCasts S1x1
  inb_S256x1536_S256x1536_0_0 : ∀ a, (![0, 0] : Fin 2 → Nat) a + S256x1536.size a ≤ S256x1536.size a
  h_S256x1536 : 0 < S256x1536.numel
  inb_S1536x3072_S1536x3072_0_0 : ∀ a, (![0, 0] : Fin 2 → Nat) a + S1536x3072.size a ≤ S1536x3072.size a
  h_S1536x3072 : 0 < S1536x3072.numel
  shapeCasts_S1536x3072_S1536x3072 : S1536x3072.ShapeCasts S1536x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1536 : S256x3072.Slices ![0, 0] S256x1536
  slices_S256x3072_o0_1536_S256x1536 : S256x3072.Slices ![0, 1536] S256x1536
  inb_S1x1536_S1x1536_0_0 : ∀ a, (![0, 0] : Fin 2 → Nat) a + S1x1536.size a ≤ S1x1536.size a
  h_S1x1536 : 0 < S1x1536.numel
  broadcasts_S1x1536_S256x1536 : S1x1536.Broadcasts S256x1536
  reduces_S256x1536_S256 : S256x1536.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1536_S256x1536 : S256x1536.ShapeCasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  broadcasts_S256x1_S256x512 : S256x1.Broadcasts S256x512
  inb_S256x1536_S256x512_0_0 : ∀ a, (![0, 0] : Fin 2 → Nat) a + S256x512.size a ≤ S256x1536.size a
  h_S256x512 : 0 < S256x512.numel
  inb_S256x1536_S256x512_0_512 : ∀ a, (![0, 512] : Fin 2 → Nat) a + S256x512.size a ≤ S256x1536.size a
  inb_S256x1536_S256x512_0_1024 : ∀ a, (![0, 1024] : Fin 2 → Nat) a + S256x512.size a ≤ S256x1536.size a
  shapeCasts_S8192x1536_S8192x3x512 : S8192x1536.ShapeCasts S8192x3x512
  transposes_S8192x3x512_S8192x512x3_0_2_1 : S8192x3x512.Transposes [0, 2, 1] S8192x512x3
  shapeCasts_S8192x512x3_S8192x1536 : S8192x512x3.ShapeCasts S8192x1536
  dot_S256x1536_S1536x3072_S256x3072_1_0_0_1_n_n_wf : DotDims.WF S256x1536 S1536x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1536.size a ≤ S8192x1536.size a
  hwx0_0 : ∀ i : grid0.Coords, EltTy.bits .f32 = 32 ∨ (Rect.block (s := S8192x1536) S256x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1536.size a ≤ S8192x1536.size a
  hwx0_1 : ∀ i : grid0.Coords, EltTy.bits .f32 = 32 ∨ (Rect.block (s := S8192x1536) S256x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x3072.size a ≤ S1536x3072.size a
  hwx0_2 : ∀ i : grid0.Coords, EltTy.bits .bf16 = 32 ∨ (Rect.block (s := S1536x3072) S1536x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1536.size a ≤ S8192x1536.size a
  hwx0_6 : ∀ i : grid0.Coords, EltTy.bits .f32 = 32 ∨ (Rect.block (s := S8192x1536) S256x1536.size (cc0_transform_6 i) (hinb0_6 i)).WholeWords (EltTy.packing .f32)

variable [Facts₀]

def dot_S256x1536_S1536x3072_S256x3072_1_0_0_1_n_n : DotDims S256x1536 S1536x3072 S256x3072 where
  lhsContracting := [1]
  rhsContracting := [0]
  lhsNonContracting := [0]
  rhsNonContracting := [1]
  lhsBatch := []
  rhsBatch := []
  wf := dot_S256x1536_S1536x3072_S256x3072_1_0_0_1_n_n_wf

abbrev win0_0 : Pipeline.Window sig grid0 :=
  Pipeline.Window.ofSpec (Memref.whole main_arg0) S256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1536x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S256x1536.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1536 : Shape := ⟨2, ![8192, 1536]⟩
abbrev S1536x1536 : Shape := ⟨2, ![1536, 1536]⟩
abbrev S1536 : Shape := ⟨1, ![1536]⟩
abbrev S1x1536 : Shape := ⟨2, ![1, 1536]⟩
abbrev S1 : Shape := ⟨1, ![1]⟩
abbrev S8192x512x3 : Shape := ⟨3, ![8192, 512, 3]⟩
abbrev S1536x1 : Shape := ⟨2, ![1536, 1]⟩
abbrev S8192x1 : Shape := ⟨2, ![8192, 1]⟩
abbrev S1x1 : Shape := ⟨2, ![1, 1]⟩
abbrev S_ : Shape := ⟨0, ![]⟩
abbrev S8192x512 : Shape := ⟨2, ![8192, 512]⟩
abbrev S8192x512x1 : Shape := ⟨3, ![8192, 512, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1536x1536, .f32⟩
  | .hbm, ⟨3, _⟩ => ⟨S1536, .f32⟩
  | .hbm, ⟨4, _⟩ => ⟨S1x1536, .f32⟩
  | .hbm, ⟨5, _⟩ => ⟨S1, .f32⟩
  | .hbm, ⟨6, _⟩ => ⟨S1536x1536, .f32⟩
  | .hbm, ⟨7, _⟩ => ⟨S1536, .f32⟩
  | .hbm, ⟨8, _⟩ => ⟨S1536x1536, .f32⟩
  | .hbm, ⟨9, _⟩ => ⟨S8192x1536, .f32⟩
  | .hbm, ⟨10, _⟩ => ⟨S1x1536, .f32⟩
  | .hbm, ⟨11, _⟩ => ⟨S8192x1536, .f32⟩
  | .hbm, ⟨12, _⟩ => ⟨S8192x1536, .f32⟩
  | .hbm, ⟨13, _⟩ => ⟨S8192x512x3, .f32⟩
  | .hbm, ⟨14, _⟩ => ⟨S1536x1, .f32⟩
  | .hbm, ⟨15, _⟩ => ⟨S8192x1, .f32⟩
  | .hbm, ⟨16, _⟩ => ⟨S1x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S1536x1536, .f32⟩
  | .hbm, ⟨28, _⟩ => ⟨S8192x1536, .f32⟩
  | .hbm, ⟨29, _⟩ => ⟨S1x1536, .f32⟩
  | .hbm, ⟨30, _⟩ => ⟨S8192x1536, .f32⟩
  | .hbm, ⟨31, _⟩ => ⟨S8192x1536, .f32⟩
  | .hbm, ⟨32, _⟩ => ⟨S8192x512x3, .f32⟩
  | .hbm, ⟨33, _⟩ => ⟨S8192x512x3, .f32⟩
  | .hbm, ⟨34, _⟩ => ⟨S_, .f32⟩
  | .hbm, ⟨35, _⟩ => ⟨S8192x512, .f32⟩
  | .hbm, ⟨36, _⟩ => ⟨S8192x512x1, .f32⟩
  | .hbm, ⟨37, _⟩ => ⟨S8192x512x1, .f32⟩
  | .hbm, ⟨38, _⟩ => ⟨S_, .f32⟩
  | .hbm, ⟨39, _⟩ => ⟨S8192x512x1, .f32⟩
  | .hbm, ⟨40, _⟩ => ⟨S8192x512x1, .f32⟩
  | .hbm, ⟨41, _⟩ => ⟨S_, .f32⟩
  | .hbm, ⟨42, _⟩ => ⟨S8192x512x1, .f32⟩
  | .hbm, ⟨43, _⟩ => ⟨S8192x512x1, .f32⟩
  | .hbm, ⟨44, _⟩ => ⟨S8192x512x1, .f32⟩
  | .hbm, ⟨45, _⟩ => ⟨S8192x512, .f32⟩
  | .hbm, ⟨46, _⟩ => ⟨S8192x512x1, .f32⟩
  | .hbm, ⟨47, _⟩ => ⟨S8192x512x1, .f32⟩
  | .hbm, ⟨48, _⟩ => ⟨S8192x512, .f32⟩
  | .hbm, ⟨49, _⟩ => ⟨S8192x512x1, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512x1, .f32⟩
  | .hbm, ⟨54, _⟩ => ⟨S8192x512, .f32⟩
  | .hbm, ⟨55, _⟩ => ⟨S8192x512, .f32⟩
  | .hbm, ⟨56, _⟩ => ⟨S8192x512x1, .f32⟩
  | .hbm, ⟨57, _⟩ => ⟨S8192x512, .f32⟩
  | .hbm, ⟨58, _⟩ => ⟨S8192x512, .f32⟩
  | .hbm, ⟨59, _⟩ => ⟨S8192x512x1, .f32⟩
  | .hbm, ⟨60, _⟩ => ⟨S8192x512, .f32⟩
  | .hbm, ⟨61, _⟩ => ⟨S8192x512x1, .f32⟩
  | .hbm, ⟨62, _⟩ => ⟨S8192x512, .f32⟩
  | .hbm, ⟨63, _⟩ => ⟨S8192x512x1, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512x1, .f32⟩
  | .hbm, ⟨102, _⟩ => ⟨S8192x512x1, .f32⟩
  | .hbm, ⟨103, _⟩ => ⟨S8192x512x1, .f32⟩
  | .hbm, ⟨104, _⟩ => ⟨S8192x512x3, .f32⟩
  | .hbm, ⟨105, _⟩ => ⟨S8192x1536, .f32⟩
  | .hbm, ⟨106, _⟩ => ⟨S8192x1536, .f32⟩
  | .hbm, ⟨107, _⟩ => ⟨S8192x1536, .f32⟩
  | .hbm, ⟨108, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]

class Facts₀ : Prop where
  transposes_S1536x1536_S1536x1536_1_0 : S1536x1536.Transposes [1, 0] S1536x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  shapeCasts_S8192x1536_S8192x512x3 : S8192x1536.ShapeCasts S8192x512x3
  transposes_S1x1536_S1536x1_1_0 : S1x1536.Transposes [1, 0] S1536x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  reducesTo_S8192x512x3_S8192x512_d2 : S8192x512x3.ReducesTo [2] S8192x512
  h_S_ : 0 < S_.numel
  bcast_S8192x512_S8192x512x1_0_1 : S8192x512.BroadcastsInDim S8192x512x1 (![0, 1] : Fin 2 → Fin S8192x512x1.rank)
  bcast_S_S8192x512x1 : S_.BroadcastsInDim S8192x512x1 (![] : Fin 0 → Fin S8192x512x1.rank)
  shapeCasts_S8192x512x1_S8192x512 : S8192x512x1.ShapeCasts S8192x512
  slices_S8192x512x3_S8192x512x1_0_0_2 : S8192x512x3.Slices ![0, 0, 2] S8192x512x1
  slices_S8192x512x3_S8192x512x1_0_0_1 : S8192x512x3.Slices ![0, 0, 1] S8192x512x1
  slices_S8192x512x3_S8192x512x1_0_0_0 : S8192x512x3.Slices ![0, 0, 0] S8192x512x1
  bcast_S_S8192x512 : S_.BroadcastsInDim S8192x512 (![] : Fin 0 → Fin S8192x512.rank)
  concatenates_S8192x512x1_S8192x512x1_S8192x512x1_S8192x512x3_d2 : Shape.Concatenates [S8192x512x1, S8192x512x1, S8192x512x1] S8192x512x3 2
  shapeCasts_S8192x512x3_S8192x1536 : S8192x512x3.ShapeCasts S8192x1536
  bcast_S8192x1_S8192x1536_0_1 : S8192x1.BroadcastsInDim S8192x1536 (![0, 1] : Fin 2 → Fin S8192x1536.rank)
  dot_S8192x1536_S1536x1536_S8192x1536_1_0_0_1_n_n_wf : DotDims.WF S8192x1536 S1536x1536 S8192x1536 [1] [0] [0] [1] [] []
  dot_S8192x1536_S1536x1_S8192x1_1_0_0_1_n_n_wf : DotDims.WF S8192x1536 S1536x1 S8192x1 [1] [0] [0] [1] [] []

variable [Facts₀]

def dot_S8192x1536_S1536x1536_S8192x1536_1_0_0_1_n_n : DotDims S8192x1536 S1536x1536 S8192x1536 where
  lhsContracting := [1]
  rhsContracting := [0]
  lhsNonContracting := [0]
  rhsNonContracting := [1]
  lhsBatch := []
  rhsBatch := []
  wf := dot_S8192x1536_S1536x1536_S8192x1536_1_0_0_1_n_n_wf
def dot_S8192x1536_S1536x1_S8192x1_1_0_0_1_n_n : DotDims S8192x1536 S1536x1 S8192x1 where
  lhsContracting := [1]
  rhsContracting := [0]
  lhsNonContracting := [0]
  rhsNonContracting := [1]
  lhsBatch := []
  rhsBatch := []
  wf := dot_S8192x1536_S1536x1_S8192x1_1_0_0_1_n_n_wf

class Facts : Prop extends Facts₀ where

variable [Facts]
-- ==== Proof.QuatSpec.lean ====
/-
  The single-step update of a block-diagonal quaternion state-space layer, as one function of its eight arguments.

  Per batch row `r` and per block `blk` of three consecutive channels: a bivector `b = (b0, b1, b2)` and an
  injection are two affine maps of the row `x r`; the state triple `v = (vx, vy, vz)` of `h r` is rotated by the
  unit quaternion `(w, q)`, `w = cos (|b|/2)`, `q = (sin (|b|/2) / |b|) · (b2, -b1, b0)`, with `|b|` floored at a
  small positive constant, through `t = 2 (q × v)`, `v' = v + w t + q × t`; the result is `gate r · v' + injection`,
  the gate a logistic of a third affine map of the row. Everything is read on the extended reals, every float
  word its exact value.

  Stated here: the scalar rotation (`rot`), one output cell (`cell`), the array-level function (`out`, `G`), and
  the three spellings in which the two programs differ — a quotient by two against a product with one half, a
  difference from zero against a negation, a three-term sum from zero against a nested binary sum — and the
  logistic against its expansion.
-/
import Idealize.ShloMosaic.PureOps.Ideal
import Idealize.ShloMosaic.PureOps.Ideal.Laws
import Idealize.ShloMosaic.Lib.ValueIdx

noncomputable section

namespace Cert.Quat

open Idealize.ShloMosaic Idealize.ShloMosaic.ValueIdx
open scoped BigOperators

/-! ## The float words the programs spell -/

/-- The word of `1.0` is the real one. -/
theorem word_one : Ideal.ofBits .f32 0x3F800000#32 = 1 := by
  simp [Ideal.ofBits, Ideal.ieee, -EReal.coe_mul]; norm_num

/-- The word of `2.0` is the real two. -/
theorem word_two : Ideal.ofBits .f32 0x40000000#32 = ((2 : ℝ) : EReal) := by
  simp [Ideal.ofBits, Ideal.ieee, -EReal.coe_mul]; norm_num

/-- The word of `0.5` is the real one half. -/
theorem word_half : Ideal.ofBits .f32 0x3F000000#32 = ((1 / 2 : ℝ) : EReal) := by
  simp [Ideal.ofBits, Ideal.ieee, -EReal.coe_mul]; norm_num

/-- The floor of the bivector's length (the word both programs spell for `1e-8`; never evaluated). -/
def eps : EReal := Ideal.ofBits .f32 0x322BCC77#32
/-- One half, as the word. -/
def half : EReal := Ideal.ofBits .f32 0x3F000000#32
/-- Two, as the word. -/
def two : EReal := Ideal.ofBits .f32 0x40000000#32
/-- Zero, as the word. -/
def zero : EReal := Ideal.ofBits .f32 0x00000000#32

/-! ## The rotation of one state triple -/

/-- The bivector's Euclidean length, floored. -/
def len (b0 b1 b2 : EReal) : EReal := max (Ideal.sqrt (b0 * b0 + b1 * b1 + b2 * b2)) eps
/-- The quaternion's scalar part: the cosine of half the length. -/
def cosH (n : EReal) : EReal := Ideal.cos (n * half)
/-- The factor of its vector part: the sine of half the length over the length. -/
def sinc (n : EReal) : EReal := Ideal.div (Ideal.sin (n * half)) n

section Rot
variable (w s b0 b1 b2 vx vy vz : EReal)

/-- The quaternion's vector part `q = s · (b2, -b1, b0)`. -/
def qx : EReal := s * b2
def qy : EReal := (zero - s) * b1
def qz : EReal := s * b0
/-- `t = 2 (q × v)`. -/
def tx : EReal := two * (qy s b1 * vz - qz s b0 * vy)
def ty : EReal := two * (qz s b0 * vx - qx s b2 * vz)
def tz : EReal := two * (qx s b2 * vy - qy s b1 * vx)
/-- `v' = v + w t + q × t`, coordinate by coordinate. -/
def rotX : EReal := vx + w * tx s b0 b1 vy vz + (qy s b1 * tz s b1 b2 vx vy - qz s b0 * ty s b0 b2 vx vz)
def rotY : EReal := vy + w * ty s b0 b2 vx vz + (qz s b0 * tx s b0 b1 vy vz - qx s b2 * tz s b1 b2 vx vy)
def rotZ : EReal := vz + w * tz s b1 b2 vx vy + (qx s b2 * ty s b0 b2 vx vz - qy s b1 * tx s b0 b1 vy vz)

/-- Coordinate `ch` of the rotated triple. -/
def rot (ch : Fin 3) : EReal :=
  match ch with
  | ⟨0, _⟩ => rotX w s b0 b1 b2 vx vy vz
  | ⟨1, _⟩ => rotY w s b0 b1 b2 vx vy vz
  | ⟨2, _⟩ => rotZ w s b0 b1 b2 vx vy vz

end Rot

/-- One output cell: the gate times coordinate `ch` of the state triple rotated by the bivector, plus the injection. -/
def cell (d b0 b1 b2 vx vy vz inj : EReal) (ch : Fin 3) : EReal :=
  d * rot (cosH (len b0 b1 b2)) (sinc (len b0 b1 b2)) b0 b1 b2 vx vy vz ch + inj

/-! ## The spellings in which the two programs differ -/

/-- A quotient by the word of two is the product with the word of one half, on every extended real. -/
theorem div_two (n : EReal) : Ideal.div n (Ideal.ofBits .f32 0x40000000#32) = n * half := by
  rw [half, word_two, word_half, Ideal.div_coe (by norm_num : (2 : ℝ) ≠ 0)]

/-- A negation is the difference from the word of zero. -/
theorem neg_eq (s : EReal) : -s = zero - s := by
  rw [zero, Ideal.ofBits_zero_f32, zero_sub]

/-- A sum over three terms started from the word of zero is the nested binary sum. -/
theorem sum3 (f : Fin 3 → EReal) :
    Ideal.ofBits .f32 0x00000000#32 + ∑ k : Fin 3, f k = f 0 + f 1 + f 2 := by
  rw [Ideal.ofBits_zero_f32, zero_add, Fin.sum_univ_three]

/-- The logistic is its expansion `1 / (1 + e^(-z))`, the ones spelt as words. -/
theorem logistic_eq (z : EReal) :
    Ideal.div (Ideal.ofBits .f32 0x3F800000#32) (Ideal.ofBits .f32 0x3F800000#32 + Ideal.exp (-z)) = Ideal.logistic z := by
  rw [word_one]; rfl

/-! ## The function of the arguments -/

/-- A real matrix and a real vector of literal extents, as the programs' arrays at the ideal instance. -/
abbrev Mat (a b : Nat) : Type := (⟨2, ![a, b]⟩ : Shape).Idx → EReal
abbrev Vect (a : Nat) : Type := (⟨1, ![a]⟩ : Shape).Idx → EReal

/-- Row `r` of `x` against row `c` of `W`, plus the bias at `c`: one entry of `x Wᵀ + b`. -/
def lin (x : Mat 8192 1536) (W : Mat 1536 1536) (b : Vect 1536) (r : Fin 8192) (c : Fin 1536) : EReal :=
  (∑ k : Fin 1536, x (ix2 r k) * W (ix2 c k)) + b (ix1 c)

/-- The gate of row `r`: the logistic of `x r · W_dec + b_dec`. -/
def gate (x : Mat 8192 1536) (Wd : Mat 1 1536) (bd : Vect 1) (r : Fin 8192) : EReal :=
  Ideal.logistic ((∑ k : Fin 1536, x (ix2 r k) * Wd (ix2 (0 : Fin 1) k)) + bd (ix1 (0 : Fin 1)))

/-- Channel `ch` of block `blk`. -/
def col (blk : Fin 512) (ch : Fin 3) : Fin 1536 := ⟨3 * blk.val + ch.val, by have := blk.isLt; have := ch.isLt; omega⟩

/-- The result at row `r`, block `blk`, channel `ch`. -/
def out (x h : Mat 8192 1536) (Wb : Mat 1536 1536) (bb : Vect 1536) (Wd : Mat 1 1536) (bd : Vect 1)
    (Wi : Mat 1536 1536) (bi : Vect 1536) (r : Fin 8192) (blk : Fin 512) (ch : Fin 3) : EReal :=
  cell (gate x Wd bd r)
    (lin x Wb bb r (col blk 0)) (lin x Wb bb r (col blk 1)) (lin x Wb bb r (col blk 2))
    (h (ix2 r (col blk 0))) (h (ix2 r (col blk 1))) (h (ix2 r (col blk 2)))
    (lin x Wi bi r (col blk ch)) ch

/-- The result array: entry `(r, c)` is channel `c % 3` of block `c / 3`. -/
def G (x h : Mat 8192 1536) (Wb : Mat 1536 1536) (bb : Vect 1536) (Wd : Mat 1 1536) (bd : Vect 1)
    (Wi : Mat 1536 1536) (bi : Vect 1536) : Mat 8192 1536 := fun i =>
  out x h Wb bb Wd bd Wi bi (i 0) ⟨(i 1).val / 3, by have := idx2_lt1 i; omega⟩ ⟨(i 1).val % 3, by omega⟩

end Cert.Quat

end
-- ==== Proof.RefValue.lean ====
/-
  The reference, entry by entry.

  The reference computes `x W_bivᵀ + b_biv`, views it and the state as `[batch, 512, 3]`, takes the Euclidean length of
  each triple as the square root of a three-term sum, rotates every state triple by the quaternion of its bivector,
  stacks the three rotated coordinates back on the last axis, flattens, scales by the logistic gate of the row
  (spelt out as `1 / (1 + e^(-z))`) and adds `x W_inᵀ + b_in`. Read at row `r`, block `blk`, channel `ch`, that is
  `Cert.Quat.out`; the whole result is `Cert.Quat.G`.
-/
import proofs.«152497_j17102559773341_2_alg».proof.Proof.Gen.ReferenceIdeal.Read
import proofs.«152497_j17102559773341_2_alg».proof.Proof.QuatSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Quat
open scoped BigOperators

variable (x0 x1 : (⟨S8192x1536, .f32⟩ : BufTy).Contents (Elt Ideal)) (x2 : (⟨S1536x1536, .f32⟩ : BufTy).Contents (Elt Ideal))
  (x3 : (⟨S1536, .f32⟩ : BufTy).Contents (Elt Ideal)) (x4 : (⟨S1x1536, .f32⟩ : BufTy).Contents (Elt Ideal))
  (x5 : (⟨S1, .f32⟩ : BufTy).Contents (Elt Ideal)) (x6 : (⟨S1536x1536, .f32⟩ : BufTy).Contents (Elt Ideal))
  (x7 : (⟨S1536, .f32⟩ : BufTy).Contents (Elt Ideal))

/-! ## The two affine maps and the triples -/

/-- Entry `(r, c)` of `x Wᵀ + b` for the bivector map. -/
theorem biv_flat (r : Fin 8192) (c : Fin 1536) :
    val_main_v4 (F := Ideal) x0 x2 x3 (ix2 r c) = lin x0 x2 x3 r c := by
  rw [val_main_v4_apply, val_main_v1_apply, val_main_v3_apply, val_main_v2_apply]
  unfold lin
  refine congrArg₂ (· + ·) (Finset.sum_congr rfl fun k _ => ?_) ?_
  · rw [val_main_v0_apply]
    refine congrArg₂ (· * ·) (congrArg x0 ?_) (congrArg x2 ?_)
    · funext a; apply Fin.ext
      match a with
      | ⟨0, _⟩ => rfl
      | ⟨1, _⟩ => rfl
    · funext a; apply Fin.ext
      match a with
      | ⟨0, _⟩ => rfl
      | ⟨1, _⟩ => rfl
  · refine congrArg x3 ?_
    funext a; apply Fin.ext
    match a with
    | ⟨0, _⟩ => rfl

/-- The same for the injection map. -/
theorem inj_flat (r : Fin 8192) (c : Fin 1536) :
    val_main_v21 (F := Ideal) x0 x6 x7 (ix2 r c) = lin x0 x6 x7 r c := by
  rw [val_main_v21_apply, val_main_v18_apply, val_main_v20_apply, val_main_v19_apply]
  unfold lin
  refine congrArg₂ (· + ·) (Finset.sum_congr rfl fun k _ => ?_) ?_
  · rw [val_main_v17_apply]
    refine congrArg₂ (· * ·) (congrArg x0 ?_) (congrArg x6 ?_)
    · funext a; apply Fin.ext
      match a with
      | ⟨0, _⟩ => rfl
      | ⟨1, _⟩ => rfl
    · funext a; apply Fin.ext
      match a with
      | ⟨0, _⟩ => rfl
      | ⟨1, _⟩ => rfl
  · refine congrArg x7 ?_
    funext a; apply Fin.ext
    match a with
    | ⟨0, _⟩ => rfl

/-- The flat position of channel `ch` of block `blk` in row `r`. -/
theorem flat_idx (r : Fin 8192) (blk : Fin 512) (ch : Fin 3) :
    idx_main_v5 (ix3 r blk ch) = ix2 r (col blk ch) := by
  funext a; apply Fin.ext
  have hb := blk.isLt; have hc := ch.isLt
  match a with
  | ⟨0, _⟩ => show ((r.val * 512 + blk.val) * 3 + ch.val) / 1536 = r.val; omega
  | ⟨1, _⟩ => show ((r.val * 512 + blk.val) * 3 + ch.val) % 1536 = 3 * blk.val + ch.val; omega

/-- Channel `ch` of bivector `blk` of row `r`. -/
theorem biv_apply (r : Fin 8192) (blk : Fin 512) (ch : Fin 3) :
    val_main_v5 (F := Ideal) x0 x2 x3 (ix3 r blk ch) = lin x0 x2 x3 r (col blk ch) := by
  rw [val_main_v5_apply, flat_idx, biv_flat]

/-- Channel `ch` of state triple `blk` of row `r`. -/
theorem state_apply (r : Fin 8192) (blk : Fin 512) (ch : Fin 3) :
    val_main_v22 (F := Ideal) x1 (ix3 r blk ch) = x1 (ix2 r (col blk ch)) := by
  rw [val_main_v22_apply]
  exact congrArg x1 (flat_idx r blk ch)

/-! ## The length of a bivector and the two quaternion factors -/

/-- Abbreviations for the entries of row `r`, block `blk`: the bivector, its floored length, the state triple. -/
abbrev B (r : Fin 8192) (blk : Fin 512) (ch : Fin 3) : EReal := lin x0 x2 x3 r (col blk ch)
abbrev L (r : Fin 8192) (blk : Fin 512) : EReal := len (B x0 x2 x3 r blk 0) (B x0 x2 x3 r blk 1) (B x0 x2 x3 r blk 2)
abbrev Vv (r : Fin 8192) (blk : Fin 512) (ch : Fin 3) : EReal := x1 (ix2 r (col blk ch))

/-- The floored length of bivector `blk` of row `r`: the square root of the three squares summed from zero, against
    the floor. -/
theorem len_apply (r : Fin 8192) (blk : Fin 512) (u : Fin 1) :
    val_main_v25 (F := Ideal) x0 x2 x3 (ix3 r blk u) = L x0 x2 x3 r blk := by
  rw [val_main_v25_apply, val_main_v23_apply, val_main_call0_v2_apply, val_main_call0_v1_apply, val_main_v24_apply,
    val_main_cst_1_apply]
  have hk : ∀ k : Fin 3, val_main_call0_v0 (F := Ideal) x0 x2 x3 (idx_main_call0_v1 (idx_main_call0_v2 (ix3 r blk u)) k)
      = B x0 x2 x3 r blk k * B x0 x2 x3 r blk k := fun k => by
    rw [val_main_call0_v0_apply, show idx_main_call0_v1 (idx_main_call0_v2 (ix3 r blk u)) k = ix3 r blk k from
      funext fun a => Fin.ext (by match a with | ⟨0, _⟩ => rfl | ⟨1, _⟩ => rfl | ⟨2, _⟩ => rfl), biv_apply]
    rfl
  show max (Ideal.sqrt (Ideal.ofBits .f32 0x00000000#32 + ∑ k : Fin 3,
    val_main_call0_v0 (F := Ideal) x0 x2 x3 (idx_main_call0_v1 (idx_main_call0_v2 (ix3 r blk u)) k))) (Ideal.ofBits .f32 0x322BCC77#32) = _
  rw [sum3, hk 0, hk 1, hk 2]
  rfl

/-- The position `(r, blk, 0)` of the kept unit axis, from `(r, blk)`. -/
theorem keep_idx (r : Fin 8192) (blk : Fin 512) : idx_main_v29 (ix2 r blk) = ix3 r blk (0 : Fin 1) := by
  funext a; apply Fin.ext
  have hb := blk.isLt
  match a with
  | ⟨0, _⟩ => show (r.val * 512 + blk.val) / 512 = r.val; omega
  | ⟨1, _⟩ => show (r.val * 512 + blk.val) / 1 % 512 = blk.val; omega
  | ⟨2, _⟩ => rfl

/-- The quaternion's scalar part: the cosine of the length over two. -/
theorem w_apply (r : Fin 8192) (blk : Fin 512) :
    val_main_v29 (F := Ideal) x0 x2 x3 (ix2 r blk) = cosH (L x0 x2 x3 r blk) := by
  rw [val_main_v29_apply, keep_idx, val_main_v28_apply, val_main_v27_apply, len_apply, val_main_v26_apply, val_main_cst_2_apply]
  show Ideal.cos (Ideal.div _ (Ideal.ofBits .f32 0x40000000#32)) = _
  rw [div_two]
  rfl

/-- The factor of its vector part: the sine of the length over two, over the length. -/
theorem s_apply (r : Fin 8192) (blk : Fin 512) :
    val_main_v32 (F := Ideal) x0 x2 x3 (ix2 r blk) = sinc (L x0 x2 x3 r blk) := by
  rw [val_main_v32_apply, show idx_main_v32 (ix2 r blk) = ix3 r blk (0 : Fin 1) from keep_idx r blk, val_main_v31_apply,
    val_main_v30_apply, val_main_v27_apply, len_apply, val_main_v26_apply, val_main_cst_2_apply]
  show Ideal.div (Ideal.sin (Ideal.div _ (Ideal.ofBits .f32 0x40000000#32))) _ = _
  rw [div_two]
  rfl

/-! ## The components the rotation reads -/

theorem b2_apply (r : Fin 8192) (blk : Fin 512) :
    val_main_v34 (F := Ideal) x0 x2 x3 (ix2 r blk) = B x0 x2 x3 r blk 2 := by
  rw [val_main_v34_apply, show idx_main_v34 (ix2 r blk) = ix3 r blk (0 : Fin 1) from keep_idx r blk, val_main_v33_apply,
    show idx_main_v33 (ix3 r blk (0 : Fin 1)) = ix3 r blk (2 : Fin 3) from
      funext fun a => Fin.ext (by match a with | ⟨0, _⟩ => rfl | ⟨1, _⟩ => rfl | ⟨2, _⟩ => rfl), biv_apply]
theorem b1_apply (r : Fin 8192) (blk : Fin 512) :
    val_main_v38 (F := Ideal) x0 x2 x3 (ix2 r blk) = B x0 x2 x3 r blk 1 := by
  rw [val_main_v38_apply, show idx_main_v38 (ix2 r blk) = ix3 r blk (0 : Fin 1) from keep_idx r blk, val_main_v37_apply,
    show idx_main_v37 (ix3 r blk (0 : Fin 1)) = ix3 r blk (1 : Fin 3) from
      funext fun a => Fin.ext (by match a with | ⟨0, _⟩ => rfl | ⟨1, _⟩ => rfl | ⟨2, _⟩ => rfl), biv_apply]
theorem b0_apply (r : Fin 8192) (blk : Fin 512) :
    val_main_v41 (F := Ideal) x0 x2 x3 (ix2 r blk) = B x0 x2 x3 r blk 0 := by
  rw [val_main_v41_apply, show idx_main_v41 (ix2 r blk) = ix3 r blk (0 : Fin 1) from keep_idx r blk, val_main_v40_apply,
    show idx_main_v40 (ix3 r blk (0 : Fin 1)) = ix3 r blk (0 : Fin 3) from
      funext fun a => Fin.ext (by match a with | ⟨0, _⟩ => rfl | ⟨1, _⟩ => rfl | ⟨2, _⟩ => rfl), biv_apply]
theorem vx_apply (r : Fin 8192) (blk : Fin 512) :
    val_main_v44 (F := Ideal) x1 (ix2 r blk) = Vv x1 r blk 0 := by
  rw [val_main_v44_apply, show idx_main_v44 (ix2 r blk) = ix3 r blk (0 : Fin 1) from keep_idx r blk, val_main_v43_apply,
    show idx_main_v43 (ix3 r blk (0 : Fin 1)) = ix3 r blk (0 : Fin 3) from
      funext fun a => Fin.ext (by match a with | ⟨0, _⟩ => rfl | ⟨1, _⟩ => rfl | ⟨2, _⟩ => rfl), state_apply]
theorem vy_apply (r : Fin 8192) (blk : Fin 512) :
    val_main_v46 (F := Ideal) x1 (ix2 r blk) = Vv x1 r blk 1 := by
  rw [val_main_v46_apply, show idx_main_v46 (ix2 r blk) = ix3 r blk (0 : Fin 1) from keep_idx r blk, val_main_v45_apply,
    show idx_main_v45 (ix3 r blk (0 : Fin 1)) = ix3 r blk (1 : Fin 3) from
      funext fun a => Fin.ext (by match a with | ⟨0, _⟩ => rfl | ⟨1, _⟩ => rfl | ⟨2, _⟩ => rfl), state_apply]
theorem vz_apply (r : Fin 8192) (blk : Fin 512) :
    val_main_v48 (F := Ideal) x1 (ix2 r blk) = Vv x1 r blk 2 := by
  rw [val_main_v48_apply, show idx_main_v48 (ix2 r blk) = ix3 r blk (0 : Fin 1) from keep_idx r blk, val_main_v47_apply,
    show idx_main_v47 (ix3 r blk (0 : Fin 1)) = ix3 r blk (2 : Fin 3) from
      funext fun a => Fin.ext (by match a with | ⟨0, _⟩ => rfl | ⟨1, _⟩ => rfl | ⟨2, _⟩ => rfl), state_apply]

/-! ## The rotated coordinates

From the quaternion's two factors, the bivector and the state triple on, every operation is entrywise and the tree
is the scalar rotation's, but for the negation, which the rotation spells as a difference from zero. -/

theorem rotX_cell (i : S8192x512.Idx) :
    val_main_v69 (F := Ideal) x0 x1 x2 x3 i
      = rotX (val_main_v29 (F := Ideal) x0 x2 x3 i) (val_main_v32 (F := Ideal) x0 x2 x3 i) (val_main_v41 (F := Ideal) x0 x2 x3 i)
          (val_main_v38 (F := Ideal) x0 x2 x3 i) (val_main_v34 (F := Ideal) x0 x2 x3 i)
          (val_main_v44 (F := Ideal) x1 i) (val_main_v46 (F := Ideal) x1 i) (val_main_v48 (F := Ideal) x1 i) := by
  simp only [rotX, qx, qy, qz, tx, ty, tz, ← neg_eq]
  rfl

theorem rotY_cell (i : S8192x512.Idx) :
    val_main_v75 (F := Ideal) x0 x1 x2 x3 i
      = rotY (val_main_v29 (F := Ideal) x0 x2 x3 i) (val_main_v32 (F := Ideal) x0 x2 x3 i) (val_main_v41 (F := Ideal) x0 x2 x3 i)
          (val_main_v38 (F := Ideal) x0 x2 x3 i) (val_main_v34 (F := Ideal) x0 x2 x3 i)
          (val_main_v44 (F := Ideal) x1 i) (val_main_v46 (F := Ideal) x1 i) (val_main_v48 (F := Ideal) x1 i) := by
  simp only [rotY, qx, qy, qz, tx, ty, tz, ← neg_eq]
  rfl

theorem rotZ_cell (i : S8192x512.Idx) :
    val_main_v81 (F := Ideal) x0 x1 x2 x3 i
      = rotZ (val_main_v29 (F := Ideal) x0 x2 x3 i) (val_main_v32 (F := Ideal) x0 x2 x3 i) (val_main_v41 (F := Ideal) x0 x2 x3 i)
          (val_main_v38 (F := Ideal) x0 x2 x3 i) (val_main_v34 (F := Ideal) x0 x2 x3 i)
          (val_main_v44 (F := Ideal) x1 i) (val_main_v46 (F := Ideal) x1 i) (val_main_v48 (F := Ideal) x1 i) := by
  simp only [rotZ, qx, qy, qz, tx, ty, tz, ← neg_eq]
  rfl

/-- Coordinate `ch` of the rotated triple `blk` of row `r`, before stacking: the stage that holds it, at `(r, blk)`. -/
theorem rot_apply (r : Fin 8192) (blk : Fin 512) :
    val_main_v69 (F := Ideal) x0 x1 x2 x3 (ix2 r blk)
        = rot (cosH (L x0 x2 x3 r blk)) (sinc (L x0 x2 x3 r blk)) (B x0 x2 x3 r blk 0) (B x0 x2 x3 r blk 1) (B x0 x2 x3 r blk 2)
            (Vv x1 r blk 0) (Vv x1 r blk 1) (Vv x1 r blk 2) 0
      ∧ val_main_v75 (F := Ideal) x0 x1 x2 x3 (ix2 r blk)
        = rot (cosH (L x0 x2 x3 r blk)) (sinc (L x0 x2 x3 r blk)) (B x0 x2 x3 r blk 0) (B x0 x2 x3 r blk 1) (B x0 x2 x3 r blk 2)
            (Vv x1 r blk 0) (Vv x1 r blk 1) (Vv x1 r blk 2) 1
      ∧ val_main_v81 (F := Ideal) x0 x1 x2 x3 (ix2 r blk)
        = rot (cosH (L x0 x2 x3 r blk)) (sinc (L x0 x2 x3 r blk)) (B x0 x2 x3 r blk 0) (B x0 x2 x3 r blk 1) (B x0 x2 x3 r blk 2)
            (Vv x1 r blk 0) (Vv x1 r blk 1) (Vv x1 r blk 2) 2 := by
  refine ⟨?_, ?_, ?_⟩
  · rw [rotX_cell, w_apply, s_apply, b0_apply, b1_apply, b2_apply, vx_apply, vy_apply, vz_apply]; rfl
  · rw [rotY_cell, w_apply, s_apply, b0_apply, b1_apply, b2_apply, vx_apply, vy_apply, vz_apply]; rfl
  · rw [rotZ_cell, w_apply, s_apply, b0_apply, b1_apply, b2_apply, vx_apply, vy_apply, vz_apply]; rfl

/-! ## Stacking the three coordinates, the gate, and the result -/

/-- Three `[8192, 512, 1]` arrays joined on the last axis, read at `(r, blk, ch)`: array `ch` at `(r, blk, 0)`. -/
theorem stack_apply (u0 u1 u2 : S8192x512x1.Idx → EReal) (r : Fin 8192) (blk : Fin 512) (ch : Fin 3) :
    concatenate S8192x512x3 2 [⟨S8192x512x1, u0⟩, ⟨S8192x512x1, u1⟩, ⟨S8192x512x1, u2⟩]
        concatenates_S8192x512x1_S8192x512x1_S8192x512x1_S8192x512x3_d2 (ix3 r blk ch)
      = (match ch with | ⟨0, _⟩ => u0 | ⟨1, _⟩ => u1 | ⟨2, _⟩ => u2) (ix3 r blk (0 : Fin 1)) := by
  have hi : ∀ (c : Fin 3) (b : Fin S8192x512x1.rank), b.cast (rfl : S8192x512x1.rank = S8192x512x3.rank) ≠ (2 : Fin 3) →
      ((ix3 r blk (0 : Fin 1) : S8192x512x1.Idx) b).val = ((ix3 r blk c : S8192x512x3.Idx) (b.cast rfl)).val := fun c b hb => by
    match b with
    | ⟨0, _⟩ => rfl
    | ⟨1, _⟩ => rfl
    | ⟨2, _⟩ => exact absurd rfl hb
  match ch with
  | ⟨0, _⟩ => exact concatenate_apply_piece 2 [⟨S8192x512x1, u0⟩, ⟨S8192x512x1, u1⟩, ⟨S8192x512x1, u2⟩] concatenates_S8192x512x1_S8192x512x1_S8192x512x1_S8192x512x3_d2 _ 0 (by show (0 : Nat) < 3; omega) S8192x512x1 u0 rfl rfl 0 rfl _ (hi 0) rfl
  | ⟨1, _⟩ => exact concatenate_apply_piece 2 [⟨S8192x512x1, u0⟩, ⟨S8192x512x1, u1⟩, ⟨S8192x512x1, u2⟩] concatenates_S8192x512x1_S8192x512x1_S8192x512x1_S8192x512x3_d2 _ 1 (by show (1 : Nat) < 3; omega) S8192x512x1 u1 rfl rfl 1 rfl _ (hi 1) rfl
  | ⟨2, _⟩ => exact concatenate_apply_piece 2 [⟨S8192x512x1, u0⟩, ⟨S8192x512x1, u1⟩, ⟨S8192x512x1, u2⟩] concatenates_S8192x512x1_S8192x512x1_S8192x512x1_S8192x512x3_d2 _ 2 (by show (2 : Nat) < 3; omega) S8192x512x1 u2 rfl rfl 2 rfl _ (hi 2) rfl

/-- The gate of row `r`: the expansion `1 / (1 + e^(-z))` is the logistic. -/
theorem gate_apply (r : Fin 8192) :
    val_main_v16 (F := Ideal) x0 x4 x5 (ix2 r (0 : Fin 1)) = gate x0 x4 x5 r := by
  rw [val_main_v16_apply, val_main_v15_apply, val_main_cst_0_apply, val_main_v14_apply, val_main_v13_apply, val_main_cst_apply,
    val_main_v12_apply, val_main_v11_apply, val_main_v10_apply, val_main_v7_apply, val_main_v9_apply, val_main_v8_apply]
  show Ideal.div (Ideal.ofBits .f32 0x3F800000#32) (Ideal.ofBits .f32 0x3F800000#32 + Ideal.exp (-(_ + _))) = _
  rw [logistic_eq]
  unfold gate
  refine congrArg Ideal.logistic (congrArg₂ (· + ·) (Finset.sum_congr rfl fun k _ => ?_) (congrArg x5 ?_))
  · rw [val_main_v6_apply]
    refine congrArg₂ (· * ·) (congrArg x0 ?_) (congrArg x4 ?_)
    · funext a; apply Fin.ext
      match a with
      | ⟨0, _⟩ => rfl
      | ⟨1, _⟩ => rfl
    · funext a; apply Fin.ext
      match a with
      | ⟨0, _⟩ => rfl
      | ⟨1, _⟩ => rfl
  · funext a; apply Fin.ext
    match a with
    | ⟨0, _⟩ => rfl

/-- The result at row `r`, block `blk`, channel `ch`. -/
theorem out_apply (r : Fin 8192) (blk : Fin 512) (ch : Fin 3) :
    val_main_v89 (F := Ideal) x0 x1 x2 x3 x4 x5 x6 x7 (ix2 r (col blk ch)) = out x0 x1 x2 x3 x4 x5 x6 x7 r blk ch := by
  have e86 : idx_main_v86 (ix2 r (col blk ch)) = ix3 r blk ch := by
    funext a; apply Fin.ext
    have hb := blk.isLt; have hc := ch.isLt
    match a with
    | ⟨0, _⟩ => show (r.val * 1536 + (3 * blk.val + ch.val)) / 1536 = r.val; omega
    | ⟨1, _⟩ => show (r.val * 1536 + (3 * blk.val + ch.val)) / 3 % 512 = blk.val; omega
    | ⟨2, _⟩ => show (r.val * 1536 + (3 * blk.val + ch.val)) % 3 = ch.val; omega
  have e87 : idx_main_v87 (ix2 r (col blk ch)) = ix2 r (0 : Fin 1) := by
    funext a; apply Fin.ext
    match a with
    | ⟨0, _⟩ => rfl
    | ⟨1, _⟩ => rfl
  have e82 : idx_main_v82 (ix3 r blk (0 : Fin 1)) = ix2 r blk := by
    funext a; apply Fin.ext
    match a with
    | ⟨0, _⟩ => rfl
    | ⟨1, _⟩ => rfl
  obtain ⟨hX, hY, hZ⟩ := rot_apply x0 x1 x2 x3 r blk
  rw [val_main_v89_apply, val_main_v88_apply, inj_flat, val_main_v87_apply, e87, gate_apply, val_main_v86_apply, e86]
  unfold val_main_v85
  rw [stack_apply]
  unfold out cell
  show _ * _ + _ = _ * _ + _
  refine congrArg (· + lin x0 x6 x7 r (col blk ch)) (congrArg (gate x0 x4 x5 r * ·) ?_)
  match ch with
  | ⟨0, _⟩ => show val_main_v82 (F := Ideal) x0 x1 x2 x3 (ix3 r blk (0 : Fin 1)) = _; rw [val_main_v82_apply, e82]; exact hX
  | ⟨1, _⟩ =>
    show val_main_v83 (F := Ideal) x0 x1 x2 x3 (ix3 r blk (0 : Fin 1)) = _
    rw [val_main_v83_apply, show idx_main_v83 (ix3 r blk (0 : Fin 1)) = ix2 r blk from e82]; exact hY
  | ⟨2, _⟩ =>
    show val_main_v84 (F := Ideal) x0 x1 x2 x3 (ix3 r blk (0 : Fin 1)) = _
    rw [val_main_v84_apply, show idx_main_v84 (ix3 r blk (0 : Fin 1)) = ix2 r blk from e82]; exact hZ

/-- The reference's result array is `G` of its arguments. -/
theorem result_eq : val_main_v89 (F := Ideal) x0 x1 x2 x3 x4 x5 x6 x7 = G x0 x1 x2 x3 x4 x5 x6 x7 := by
  funext i
  obtain ⟨r, cc, rfl⟩ : ∃ (r : Fin 8192) (cc : Fin 1536), i = ix2 r cc := ⟨i 0, i 1, eq_ix2 i⟩
  have hcc := cc.isLt
  have e : cc = col ⟨cc.val / 3, by omega⟩ ⟨cc.val % 3, by omega⟩ :=
    Fin.ext (by show cc.val = 3 * (cc.val / 3) + cc.val % 3; omega)
  refine (congrArg (fun z => val_main_v89 (F := Ideal) x0 x1 x2 x3 x4 x5 x6 x7 (ix2 r z)) e).trans ?_
  exact out_apply x0 x1 x2 x3 x4 x5 x6 x7 r _ _

end Cert.ReferenceIdeal.RefValue

end
-- ==== Proof.ChannelMajor.lean ====
/-
  The kernel's own arrangement of the update: CHANNEL-MAJOR columns. The kernel never sees the three channels of a
  block side by side. Its state operand holds, in column `ch·512 + blk`, channel `ch` of block `blk`; its one
  weight operand has 3072 columns, the first 1536 the bivector map's rows and the last 1536 the injection map's
  rows, both in that channel-major order; its result is channel-major too.

  `cmCell` is one result entry as a function of ROW data only — the row of `x`, the row of the channel-major state,
  and the small operands whole — so that a block of rows of the result is the same function of the same block of
  rows of the operands. `cmCell_eq_cell` reads it at column `ch·512 + blk` as `Cert.Quat.cell` of the three
  projections, the three state entries and the injection entry of block `blk`.
-/
import proofs.«152497_j17102559773341_2_alg».proof.Proof.QuatSpec

noncomputable section

namespace Cert.Quat

open Idealize.ShloMosaic Idealize.ShloMosaic.ValueIdx
open scoped BigOperators

/-- Column `c` of the fused projection of a row: the row against column `c` of the weight operand, plus the bias. -/
def proj (xr : Fin 1536 → EReal) (Wc : Mat 1536 3072) (bc : Mat 1 3072) (c : Fin 3072) : EReal :=
  (∑ k : Fin 1536, xr k * Wc (ix2 k c)) + bc (ix2 (0 : Fin 1) c)

/-- The gate of a row, from the decay weights as a row vector and the decay bias as a 1×1 array. -/
def gateRow (xr : Fin 1536 → EReal) (wd : Mat 1 1536) (bd : Mat 1 1) : EReal :=
  Ideal.logistic ((∑ k : Fin 1536, xr k * wd (ix2 (0 : Fin 1) k)) + bd (ix2 (0 : Fin 1) (0 : Fin 1)))

/-- Column `o + j` of a 3072-column operand, `j` below 512 and `o` one of 0, 512, 1024, 1536, … (the slab offsets). -/
def slab (o : Nat) (ho : o + 512 ≤ 3072) (j : Fin 512) : Fin 3072 := ⟨o + j.val, by have := j.isLt; omega⟩
/-- The same among 1536 columns. -/
def slab' (o : Nat) (ho : o + 512 ≤ 1536) (j : Fin 512) : Fin 1536 := ⟨o + j.val, by have := j.isLt; omega⟩

/-- One channel-major result entry: column `n = ch·512 + j` of a row, from the row of `x` (`xr`), the row of the
    channel-major state (`hr`) and the small operands. -/
def cmCell (xr hr : Fin 1536 → EReal) (Wc : Mat 1536 3072) (bc : Mat 1 3072) (wd : Mat 1 1536) (bd : Mat 1 1)
    (ch : Fin 3) (j : Fin 512) : EReal :=
  cell (gateRow xr wd bd)
    (proj xr Wc bc (slab 0 (by omega) j)) (proj xr Wc bc (slab 512 (by omega) j)) (proj xr Wc bc (slab 1024 (by omega) j))
    (hr (slab' 0 (by omega) j)) (hr (slab' 512 (by omega) j)) (hr (slab' 1024 (by omega) j))
    (proj xr Wc bc ⟨1536 + (ch.val * 512 + j.val), by have := j.isLt; have := ch.isLt; omega⟩) ch

end Cert.Quat

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KernelBlock.lean ====
/-
  What one run of the kernel body leaves in its output block, entry by entry.

  The body reads a block of 256 rows of `x` and of the channel-major state, the weight operand, the bias row, the
  decay row and the decay bias whole, and writes its 256 × 1536 output block as three 512-column slabs, one per
  channel. Every operation but four is entrywise, so an entry of a slab is the scalar rotation of `Cert.Quat` applied
  to entries of the operands; the four that are not are the fused projection (a matrix product plus a broadcast row),
  the row sum of the decay path with its kept axis, and the column slices. `block_eq`: the block is `Cert.Quat.cmCell`
  of its rows.
-/
import proofs.«152497_j17102559773341_2_alg».proof.Proof.Gen.KernelIdeal.Frame
import proofs.«152497_j17102559773341_2_alg».proof.Proof.ChannelMajor
import proofs.«152497_j17102559773341_2_alg».proof.Proof.LibMatmulPlain
import proofs.«152497_j17102559773341_2_alg».proof.Proof.LibRowReduce
import proofs.«152497_j17102559773341_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Block

open Idealize.ShloMosaic Idealize.ShloMosaic.TcCoe Idealize.ShloMosaic.ValueIdx
open Cert.KernelIdeal Cert.KernelIdeal.Gen Cert.Quat
open scoped BigOperators

/-! ## Column slices and the row broadcast, at an entry -/

/-- Columns `o … o + W - 1` of a 256-row array: entry `(p, q)` of the slice is entry `(p, o + q)` of the array. -/
theorem slice_cols {α : Type} {N W : Nat} (o : Nat) (x : (⟨2, ![256, N]⟩ : Shape).Idx → α)
    (h : (⟨2, ![256, N]⟩ : Shape).Slices ![0, o] ⟨2, ![256, W]⟩) (p : Fin 256) (q : Fin W) (hq : o + q.val < N) :
    extractStridedSlice ⟨2, ![256, W]⟩ ![0, o] x h (ix2 p q) = x (ix2 p ⟨o + q.val, hq⟩) :=
  extractStridedSlice_apply _ x h _ _ (fun a => match a with
    | ⟨0, _⟩ => by show p.val = 0 + p.val; omega
    | ⟨1, _⟩ => rfl)

/-- A single row broadcast down 256 rows: entry `(p, n)` is the row's entry `n`. -/
theorem bcast_row {α : Type} {N : Nat} (v : (⟨2, ![1, N]⟩ : Shape).Idx → α)
    (h : (⟨2, ![1, N]⟩ : Shape).Broadcasts ⟨2, ![256, N]⟩) (p : Fin 256) (n : Fin N) (hN : N ≠ 1) :
    broadcastTo ⟨2, ![256, N]⟩ v h (ix2 p n) = v (ix2 (0 : Fin 1) n) :=
  broadcastTo_apply v h _ _ (fun a => match a with
    | ⟨0, _⟩ => by show (0 : Nat) = if (1 : Nat) = 1 then 0 else p.val; rw [if_pos rfl]
    | ⟨1, _⟩ => by show n.val = if N = 1 then 0 else n.val; rw [if_neg hN])

/-! ## The fused projection and the gate -/

/-- The projection before slicing: the block's row against a column of the weight operand, plus the bias. -/
theorem proj_apply (x0 : Vec Ideal S256x1536 .f32) (x2 : Vec Ideal S1536x3072 .bf16) (x3 : Vec Ideal S1x3072 .f32)
    (p : Fin 256) (n : Fin 3072) :
    k0_pay2 (F := Ideal) x0 x2 x3 (ix2 p n) = proj (fun k => x0 (ix2 p k)) x2 x3 n := by
  unfold k0_pay2 proj
  dsimp only
  rw [addf_apply, shapeCast_self, shapeCast_self, bcast_row _ _ p n (by decide)]
  refine congrArg (· + _) ?_
  exact MatmulPlain.matmul_zero_apply none _ x2 (ix2 p n)

/-- The gate of a row of the block. -/
theorem gate_apply (x0 : Vec Ideal S256x1536 .f32) (x4 : Vec Ideal S1x1536 .f32) (x5 : Vec Ideal S1x1 .f32)
    (p : Fin 256) :
    k0_pay5 (F := Ideal) x0 x4 x5 (ix2 p (0 : Fin 1)) = gateRow (fun k => x0 (ix2 p k)) x4 x5 := by
  unfold k0_pay5 gateRow
  dsimp only
  show Ideal.logistic (_ + _) = _
  rw [shapeCast_self, Keepdims.shapeCast_a_a1_apply]
  refine congrArg Ideal.logistic (congrArg₂ (· + ·) ?_ ?_)
  · refine (RowReduce.rowSum_apply _ _ _ _ _ p).trans ?_
    refine Finset.sum_congr rfl fun k _ => ?_
    rw [mulf_apply, bcast_row _ _ p k (by decide)]
  · exact broadcastTo_apply x5 _ _ _ (fun a => match a with
      | ⟨0, _⟩ => rfl
      | ⟨1, _⟩ => rfl)

/-! ## The slabs of the projection and of the state -/

/-- A bivector slab: columns `o … o + 511` of the first half of the projection. -/
theorem biv_slab (x0 : Vec Ideal S256x1536 .f32) (x2 : Vec Ideal S1536x3072 .bf16) (x3 : Vec Ideal S1x3072 .f32)
    (o : Nat) (ho : o + 512 ≤ 1536) (h : (⟨2, ![256, 1536]⟩ : Shape).Slices ![0, o] ⟨2, ![256, 512]⟩)
    (p : Fin 256) (q : Fin 512) :
    extractStridedSlice S256x512 ![0, o] (k0_pay3 (F := Ideal) x0 x2 x3) h (ix2 p q)
      = proj (fun k => x0 (ix2 p k)) x2 x3 (slab o (by omega) q) := by
  have hq := q.isLt
  rw [slice_cols o _ h p q (by omega)]
  unfold k0_pay3
  rw [slice_cols 0 _ _ p ⟨o + q.val, by omega⟩ (by show 0 + (o + q.val) < 3072; omega), proj_apply]
  refine congrArg (proj _ x2 x3) (Fin.ext ?_)
  show 0 + (o + q.val) = o + q.val
  omega

/-- An injection slab: columns `1536 + o … 1536 + o + 511` of the projection. -/
theorem inj_slab (x0 : Vec Ideal S256x1536 .f32) (x2 : Vec Ideal S1536x3072 .bf16) (x3 : Vec Ideal S1x3072 .f32)
    (o : Nat) (ho : o + 512 ≤ 1536) (h : (⟨2, ![256, 1536]⟩ : Shape).Slices ![0, o] ⟨2, ![256, 512]⟩)
    (p : Fin 256) (q : Fin 512) :
    extractStridedSlice S256x512 ![0, o] (k0_pay4 (F := Ideal) x0 x2 x3) h (ix2 p q)
      = proj (fun k => x0 (ix2 p k)) x2 x3 ⟨1536 + (o + q.val), by have := q.isLt; omega⟩ := by
  have hq := q.isLt
  rw [slice_cols o _ h p q (by omega)]
  unfold k0_pay4
  rw [slice_cols 1536 _ _ p ⟨o + q.val, by omega⟩ (by show 1536 + (o + q.val) < 3072; omega), proj_apply]

/-- A state slab: columns `o … o + 511` of the channel-major state block. -/
theorem state_slab (x1 : Vec Ideal S256x1536 .f32)
    (o : Nat) (ho : o + 512 ≤ 1536) (h : (⟨2, ![256, 1536]⟩ : Shape).Slices ![0, o] ⟨2, ![256, 512]⟩)
    (p : Fin 256) (q : Fin 512) :
    extractStridedSlice S256x512 ![0, o] (k0_pay6 (F := Ideal) x1) h (ix2 p q) = x1 (ix2 p (slab' o ho q)) := by
  have hq := q.isLt
  rw [slice_cols o _ h p q (by omega)]
  unfold k0_pay6
  rw [shapeCast_self]
  rfl

/-! ## The three stored slabs, entry by entry

Between the slices and the stores every operation is entrywise, and the tree of operations is the scalar rotation's
term for term (the quaternion's scalar part the cosine, the factor of its vector part the sine over the length, the
negation a difference from zero, the doubling a product with the word of two), so each slab's entry is `Cert.Quat.cell`
of the entries of the slices by unfolding alone. -/

section Slabs
variable (x0 x1 : Vec Ideal S256x1536 .f32) (x2 : Vec Ideal S1536x3072 .bf16) (x3 : Vec Ideal S1x3072 .f32)
  (x4 : Vec Ideal S1x1536 .f32) (x5 : Vec Ideal S1x1 .f32)

theorem slab0_cell (i : S256x512.Idx) :
    k0_pay24 (F := Ideal) (k0_pay4 x0 x2 x3) (k0_pay5 x0 x4 x5) (k0_pay7 x0 x2 x3) (k0_pay8 x0 x2 x3) (k0_pay10 x1) (k0_pay11 x1)
        (k0_pay12 x1) (k0_pay15 x0 x2 x3) (k0_pay16 x0 x2 x3) (k0_pay17 x0 x2 x3) i
      = cell (broadcastTo S256x512 (k0_pay5 (F := Ideal) x0 x4 x5) broadcasts_S256x1_S256x512 i)
          (k0_pay7 (F := Ideal) x0 x2 x3 i) (k0_pay8 (F := Ideal) x0 x2 x3 i) (k0_pay9 (F := Ideal) x0 x2 x3 i)
          (k0_pay10 (F := Ideal) x1 i) (k0_pay11 (F := Ideal) x1 i) (k0_pay12 (F := Ideal) x1 i)
          (extractStridedSlice S256x512 ![0, 0] (k0_pay4 (F := Ideal) x0 x2 x3) slices_S256x1536_o0_0_S256x512 i) 0 := rfl

theorem slab1_cell (i : S256x512.Idx) :
    k0_pay25 (F := Ideal) (k0_pay4 x0 x2 x3) (k0_pay5 x0 x4 x5) (k0_pay7 x0 x2 x3) (k0_pay8 x0 x2 x3) (k0_pay10 x1) (k0_pay11 x1)
        (k0_pay12 x1) (k0_pay15 x0 x2 x3) (k0_pay16 x0 x2 x3) (k0_pay17 x0 x2 x3) i
      = cell (broadcastTo S256x512 (k0_pay5 (F := Ideal) x0 x4 x5) broadcasts_S256x1_S256x512 i)
          (k0_pay7 (F := Ideal) x0 x2 x3 i) (k0_pay8 (F := Ideal) x0 x2 x3 i) (k0_pay9 (F := Ideal) x0 x2 x3 i)
          (k0_pay10 (F := Ideal) x1 i) (k0_pay11 (F := Ideal) x1 i) (k0_pay12 (F := Ideal) x1 i)
          (extractStridedSlice S256x512 ![0, 512] (k0_pay4 (F := Ideal) x0 x2 x3) slices_S256x1536_o0_512_S256x512 i) 1 := rfl

theorem slab2_cell (i : S256x512.Idx) :
    k0_pay1 (F := Ideal) (k0_pay23 (k0_pay4 x0 x2 x3)) (k0_pay26 (k0_pay5 x0 x4 x5) (k0_pay7 x0 x2 x3) (k0_pay8 x0 x2 x3) (k0_pay10 x1)
        (k0_pay11 x1) (k0_pay12 x1) (k0_pay15 x0 x2 x3) (k0_pay16 x0 x2 x3) (k0_pay17 x0 x2 x3)) i
      = cell (broadcastTo S256x512 (k0_pay5 (F := Ideal) x0 x4 x5) broadcasts_S256x1_S256x512 i)
          (k0_pay7 (F := Ideal) x0 x2 x3 i) (k0_pay8 (F := Ideal) x0 x2 x3 i) (k0_pay9 (F := Ideal) x0 x2 x3 i)
          (k0_pay10 (F := Ideal) x1 i) (k0_pay11 (F := Ideal) x1 i) (k0_pay12 (F := Ideal) x1 i)
          (extractStridedSlice S256x512 ![0, 1024] (k0_pay4 (F := Ideal) x0 x2 x3) slices_S256x1536_o0_1024_S256x512 i) 2 := rfl

/-- The leaves of a slab's entry `(p, q)`: the gate of row `p`, the three bivector slabs and the three state slabs at
    column `q`. -/
theorem leaves (p : Fin 256) (q : Fin 512) :
    broadcastTo S256x512 (k0_pay5 (F := Ideal) x0 x4 x5) broadcasts_S256x1_S256x512 (ix2 p q)
        = gateRow (fun k => x0 (ix2 p k)) x4 x5
      ∧ k0_pay7 (F := Ideal) x0 x2 x3 (ix2 p q) = proj (fun k => x0 (ix2 p k)) x2 x3 (slab 0 (by omega) q)
      ∧ k0_pay8 (F := Ideal) x0 x2 x3 (ix2 p q) = proj (fun k => x0 (ix2 p k)) x2 x3 (slab 512 (by omega) q)
      ∧ k0_pay9 (F := Ideal) x0 x2 x3 (ix2 p q) = proj (fun k => x0 (ix2 p k)) x2 x3 (slab 1024 (by omega) q)
      ∧ k0_pay10 (F := Ideal) x1 (ix2 p q) = x1 (ix2 p (slab' 0 (by omega) q))
      ∧ k0_pay11 (F := Ideal) x1 (ix2 p q) = x1 (ix2 p (slab' 512 (by omega) q))
      ∧ k0_pay12 (F := Ideal) x1 (ix2 p q) = x1 (ix2 p (slab' 1024 (by omega) q)) :=
  ⟨(Keepdims.broadcastTo_a1_ab_apply _ _ p q).trans (gate_apply x0 x4 x5 p),
    biv_slab x0 x2 x3 0 (by omega) slices_S256x1536_o0_0_S256x512 p q, biv_slab x0 x2 x3 512 (by omega) slices_S256x1536_o0_512_S256x512 p q, biv_slab x0 x2 x3 1024 (by omega) slices_S256x1536_o0_1024_S256x512 p q,
    state_slab x1 0 (by omega) slices_S256x1536_o0_0_S256x512 p q, state_slab x1 512 (by omega) slices_S256x1536_o0_512_S256x512 p q, state_slab x1 1024 (by omega) slices_S256x1536_o0_1024_S256x512 p q⟩

/-- Slab `ch` at `(p, q)` is the channel-major cell of row `p`. -/
theorem slab0_apply (p : Fin 256) (q : Fin 512) :
    k0_pay24 (F := Ideal) (k0_pay4 x0 x2 x3) (k0_pay5 x0 x4 x5) (k0_pay7 x0 x2 x3) (k0_pay8 x0 x2 x3) (k0_pay10 x1) (k0_pay11 x1)
        (k0_pay12 x1) (k0_pay15 x0 x2 x3) (k0_pay16 x0 x2 x3) (k0_pay17 x0 x2 x3) (ix2 p q)
      = cmCell (fun k => x0 (ix2 p k)) (fun k => x1 (ix2 p k)) x2 x3 x4 x5 0 q := by
  obtain ⟨e5, e7, e8, e9, e10, e11, e12⟩ := leaves x0 x1 x2 x3 x4 x5 p q
  rw [slab0_cell, e5, e7, e8, e9, e10, e11, e12, inj_slab x0 x2 x3 0 (by omega) slices_S256x1536_o0_0_S256x512 p q]
  rfl

theorem slab1_apply (p : Fin 256) (q : Fin 512) :
    k0_pay25 (F := Ideal) (k0_pay4 x0 x2 x3) (k0_pay5 x0 x4 x5) (k0_pay7 x0 x2 x3) (k0_pay8 x0 x2 x3) (k0_pay10 x1) (k0_pay11 x1)
        (k0_pay12 x1) (k0_pay15 x0 x2 x3) (k0_pay16 x0 x2 x3) (k0_pay17 x0 x2 x3) (ix2 p q)
      = cmCell (fun k => x0 (ix2 p k)) (fun k => x1 (ix2 p k)) x2 x3 x4 x5 1 q := by
  obtain ⟨e5, e7, e8, e9, e10, e11, e12⟩ := leaves x0 x1 x2 x3 x4 x5 p q
  rw [slab1_cell, e5, e7, e8, e9, e10, e11, e12, inj_slab x0 x2 x3 512 (by omega) slices_S256x1536_o0_512_S256x512 p q]
  rfl

theorem slab2_apply (p : Fin 256) (q : Fin 512) :
    k0_pay1 (F := Ideal) (k0_pay23 (k0_pay4 x0 x2 x3)) (k0_pay26 (k0_pay5 x0 x4 x5) (k0_pay7 x0 x2 x3) (k0_pay8 x0 x2 x3) (k0_pay10 x1)
        (k0_pay11 x1) (k0_pay12 x1) (k0_pay15 x0 x2 x3) (k0_pay16 x0 x2 x3) (k0_pay17 x0 x2 x3)) (ix2 p q)
      = cmCell (fun k => x0 (ix2 p k)) (fun k => x1 (ix2 p k)) x2 x3 x4 x5 2 q := by
  obtain ⟨e5, e7, e8, e9, e10, e11, e12⟩ := leaves x0 x1 x2 x3 x4 x5 p q
  rw [slab2_cell, e5, e7, e8, e9, e10, e11, e12, inj_slab x0 x2 x3 1024 (by omega) slices_S256x1536_o0_1024_S256x512 p q]
  rfl

end Slabs

/-! ## The block -/

/-- Loads and stores at the origin. -/
theorem hz : (![0, 0] : Fin 2 → Nat) = fun _ => 0 := funext fun a => by fin_cases a <;> rfl

/-- The output block as one function of the operand blocks: entry `(p, n)` is the channel-major cell of row `p`,
    channel `n / 512`, block `n % 512`. -/
def blockFn (x0 x1 : Vec Ideal S256x1536 .f32) (x2 : Vec Ideal S1536x3072 .bf16) (x3 : Vec Ideal S1x3072 .f32)
    (x4 : Vec Ideal S1x1536 .f32) (x5 : Vec Ideal S1x1 .f32) : S256x1536.Idx → EReal := fun i =>
  cmCell (fun k => x0 (ix2 (i 0) k)) (fun k => x1 (ix2 (i 0) k)) x2 x3 x4 x5
    ⟨(i 1).val / 512, by have := idx2_lt1 i; omega⟩ ⟨(i 1).val % 512, by omega⟩

/-- What the body's three stores leave is that function: each slab is its restriction to the slab's columns, and the
    slabs cover the block. -/
theorem block_eq (x0 x1 : Vec Ideal S256x1536 .f32) (x2 : Vec Ideal S1536x3072 .bf16) (x3 : Vec Ideal S1x3072 .f32)
    (x4 : Vec Ideal S1x1536 .f32) (x5 : Vec Ideal S1x1 .f32) :
    out0_6 (F := Ideal) x0 x1 x2 x3 x4 x5 = blockFn x0 x1 x2 x3 x4 x5 := by
  funext y
  unfold out0_6
  simp only [View.ld_unit_zero (S := S256x1536) hz, View.ld_unit_zero (S := S1536x3072) hz, View.ld_unit_zero (S := S1x3072) hz,
    View.ld_unit_zero (S := S1x1536) hz, View.ld_unit_zero (S := S1x1) hz]
  refine View.canon_apply_of_pieces (Val := Elt Ideal) (S := S256x1536) (e := .f32) (blockFn x0 x1 x2 x3 x4 x5) _ ?_ y (cover0_6 _ _ _ y)
  intro pc hpc x
  simp only [List.mem_cons, List.mem_nil_iff, or_false] at hpc
  rcases hpc with rfl | rfl | rfl
  · obtain ⟨p, q, rfl⟩ : ∃ (p : Fin 256) (q : Fin 512), x = ix2 p q := ⟨x 0, x 1, eq_ix2 (n0 := 256) (n1 := 512) x⟩
    have hq := q.isLt
    refine (slab2_apply x0 x1 x2 x3 x4 x5 p q).trans ?_
    have e0 : (r0_7.emb (ix2 p q)) 0 = p := Fin.ext (by show 0 + 1 * p.val = p.val; omega)
    unfold blockFn
    rw [e0]
    exact congrArg₂ (cmCell (fun k => x0 (ix2 p k)) (fun k => x1 (ix2 p k)) x2 x3 x4 x5)
      (Fin.ext (by show 2 = (1024 + 1 * q.val) / 512; omega)) (Fin.ext (by show q.val = (1024 + 1 * q.val) % 512; omega))
  · obtain ⟨p, q, rfl⟩ : ∃ (p : Fin 256) (q : Fin 512), x = ix2 p q := ⟨x 0, x 1, eq_ix2 (n0 := 256) (n1 := 512) x⟩
    have hq := q.isLt
    refine (slab1_apply x0 x1 x2 x3 x4 x5 p q).trans ?_
    have e0 : (r0_6.emb (ix2 p q)) 0 = p := Fin.ext (by show 0 + 1 * p.val = p.val; omega)
    unfold blockFn
    rw [e0]
    exact congrArg₂ (cmCell (fun k => x0 (ix2 p k)) (fun k => x1 (ix2 p k)) x2 x3 x4 x5)
      (Fin.ext (by show 1 = (512 + 1 * q.val) / 512; omega)) (Fin.ext (by show q.val = (512 + 1 * q.val) % 512; omega))
  · obtain ⟨p, q, rfl⟩ : ∃ (p : Fin 256) (q : Fin 512), x = ix2 p q := ⟨x 0, x 1, eq_ix2 (n0 := 256) (n1 := 512) x⟩
    have hq := q.isLt
    refine (slab0_apply x0 x1 x2 x3 x4 x5 p q).trans ?_
    have e0 : (r0_5.emb (ix2 p q)) 0 = p := Fin.ext (by show 0 + 1 * p.val = p.val; omega)
    unfold blockFn
    rw [e0]
    exact congrArg₂ (cmCell (fun k => x0 (ix2 p k)) (fun k => x1 (ix2 p k)) x2 x3 x4 x5)
      (Fin.ext (by show 0 = (0 + 1 * q.val) / 512; omega)) (Fin.ext (by show q.val = (0 + 1 * q.val) % 512; omega))

end Cert.KernelIdeal.Block

end
-- ==== Proof.KernelPrelude.lean ====
/-
  What the host lines before the kernel launch compute, read at an entry.

  Four of the kernel's six operands are made by reshapes, transposes and joins of the arguments: the state in
  channel-major columns; the two weight matrices with their ROWS in channel-major order, transposed and joined side by
  side; the two biases in channel-major order, joined end to end, as a row; the decay bias as a 1 × 1 array. Column
  `ch·512 + blk` of the channel-major order is channel `ch` of block `blk`, that is column `3·blk + ch` of the
  argument. A change of float format is the identity on extended reals.
-/
import proofs.«152497_j17102559773341_2_alg».proof.Proof.Gen.KernelIdeal.Frame
import proofs.«152497_j17102559773341_2_alg».proof.Proof.QuatSpec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Prelude

open Idealize.ShloMosaic Idealize.ShloMosaic.TcCoe Idealize.SL.Sem Idealize.ShloMosaic.StableHlo Idealize.ShloMosaic.ValueIdx
open Cert.KernelIdeal Cert.KernelIdeal.Gen Cert.Quat

/-- The channel-major column of channel `ch` of block `blk`. -/
def cmcol (ch : Fin 3) (blk : Fin 512) : Fin 1536 := ⟨ch.val * 512 + blk.val, by have := ch.isLt; have := blk.isLt; omega⟩

section Relayouts
variable {α : Type}

/-- The state's relayout: `[8192, 1536] → [8192, 512, 3] → [8192, 3, 512] → [8192, 1536]`. -/
def hcmOf (h : S8192x1536.Idx → α) : S8192x1536.Idx → α :=
  shapeCast S8192x1536 (transpose S8192x3x512 [0, 2, 1] (shapeCast S8192x512x3 h shapeCasts_S8192x1536_S8192x512x3)
    transposes_S8192x512x3_S8192x3x512_0_2_1) shapeCasts_S8192x3x512_S8192x1536

theorem hcmOf_apply (h : S8192x1536.Idx → α) (r : Fin 8192) (ch : Fin 3) (blk : Fin 512) :
    hcmOf h (ix2 r (cmcol ch blk)) = h (ix2 r (col blk ch)) := by
  have hc := ch.isLt; have hb := blk.isLt
  unfold hcmOf
  rw [shapeCast_apply _ _ (ix2 r (cmcol ch blk)) (ix3 r ch blk) (by
      rw [Shape.rowMajor_val_three, Shape.rowMajor_val_two]
      show (r.val * 3 + ch.val) * 512 + blk.val = r.val * 1536 + (ch.val * 512 + blk.val); omega),
    transpose_apply _ _ _ (ix3 r ch blk) (ix3 r blk ch) (fun b => match b with
      | ⟨0, _⟩ => rfl
      | ⟨1, _⟩ => rfl
      | ⟨2, _⟩ => rfl),
    shapeCast_apply _ _ (ix3 r blk ch) (ix2 r (col blk ch)) (by
      rw [Shape.rowMajor_val_two, Shape.rowMajor_val_three]
      show r.val * 1536 + (3 * blk.val + ch.val) = (r.val * 512 + blk.val) * 3 + ch.val; omega)]

/-- A weight matrix with its rows in channel-major order: `[1536, 1536] → [512, 3, 1536] → [3, 512, 1536] → [1536, 1536]`. -/
def rowsCm (W : S1536x1536.Idx → α) : S1536x1536.Idx → α :=
  shapeCast S1536x1536 (transpose S3x512x1536 [1, 0, 2] (shapeCast S512x3x1536 W shapeCasts_S1536x1536_S512x3x1536)
    transposes_S512x3x1536_S3x512x1536_1_0_2) shapeCasts_S3x512x1536_S1536x1536

theorem rowsCm_apply (W : S1536x1536.Idx → α) (ch : Fin 3) (blk : Fin 512) (k : Fin 1536) :
    rowsCm W (ix2 (cmcol ch blk) k) = W (ix2 (col blk ch) k) := by
  have hc := ch.isLt; have hb := blk.isLt; have hk := k.isLt
  unfold rowsCm
  rw [shapeCast_apply _ _ (ix2 (cmcol ch blk) k) (ix3 ch blk k) (by
      rw [Shape.rowMajor_val_three, Shape.rowMajor_val_two]
      show (ch.val * 512 + blk.val) * 1536 + k.val = (ch.val * 512 + blk.val) * 1536 + k.val; rfl),
    transpose_apply _ _ _ (ix3 ch blk k) (ix3 blk ch k) (fun b => match b with
      | ⟨0, _⟩ => rfl
      | ⟨1, _⟩ => rfl
      | ⟨2, _⟩ => rfl),
    shapeCast_apply _ _ (ix3 blk ch k) (ix2 (col blk ch) k) (by
      rw [Shape.rowMajor_val_two, Shape.rowMajor_val_three]
      show (3 * blk.val + ch.val) * 1536 + k.val = (blk.val * 3 + ch.val) * 1536 + k.val; omega)]

/-- A bias in channel-major order: `[1536] → [512, 3] → [3, 512] → [1536]`. -/
def biasCm (b : S1536.Idx → α) : S1536.Idx → α :=
  shapeCast S1536 (transpose S3x512 [1, 0] (shapeCast S512x3 b shapeCasts_S1536_S512x3) transposes_S512x3_S3x512_1_0)
    shapeCasts_S3x512_S1536

theorem biasCm_apply (b : S1536.Idx → α) (ch : Fin 3) (blk : Fin 512) :
    biasCm b (ix1 (cmcol ch blk)) = b (ix1 (col blk ch)) := by
  have hc := ch.isLt; have hb := blk.isLt
  unfold biasCm
  rw [shapeCast_apply _ _ (ix1 (cmcol ch blk)) (ix2 ch blk) (by
      rw [Shape.rowMajor_val_two, Shape.rowMajor_val_one]
      show ch.val * 512 + blk.val = ch.val * 512 + blk.val; rfl),
    transpose_apply _ _ _ (ix2 ch blk) (ix2 blk ch) (fun b => match b with
      | ⟨0, _⟩ => rfl
      | ⟨1, _⟩ => rfl),
    shapeCast_apply _ _ (ix2 blk ch) (ix1 (col blk ch)) (by
      rw [Shape.rowMajor_val_one, Shape.rowMajor_val_two]
      show 3 * blk.val + ch.val = blk.val * 3 + ch.val; omega)]

end Relayouts

/-! ## The operands as the host lines leave them -/

section Operands
variable (m : (ℓ : Loc nD τ sig) → Buf (Elt Ideal) ℓ) (c : Dev nD)

/-- The weight operand: the two channel-major weight matrices, transposed, side by side. -/
def wcatOf (Wb Wi : S1536x1536.Idx → EReal) : S1536x3072.Idx → EReal :=
  concatenate S1536x3072 1
    [⟨S1536x1536, truncf (F := Ideal) (φ := .f32) .bf16 (transpose S1536x1536 [1, 0] (rowsCm Wb) transposes_S1536x1536_S1536x1536_1_0) bitsLt_bf16_f32⟩,
      ⟨S1536x1536, truncf (F := Ideal) (φ := .f32) .bf16 (transpose S1536x1536 [1, 0] (rowsCm Wi) transposes_S1536x1536_S1536x1536_1_0) bitsLt_bf16_f32⟩]
    concatenates_S1536x1536_S1536x1536_S1536x3072_d1

/-- The bias operand: the two channel-major biases end to end, as a row. -/
def bcatOf (bb bi : S1536.Idx → EReal) : S1x3072.Idx → EReal :=
  shapeCast S1x3072 (concatenate S3072 0 [⟨S1536, biasCm bb⟩, ⟨S1536, biasCm bi⟩] concatenates_S1536_S1536_S3072_d0)
    shapeCasts_S3072_S1x3072

/-- The weight operand's first 1536 columns: column `ch·512 + blk` is row `3·blk + ch` of the bivector weights. -/
theorem wcat_left (Wb Wi : S1536x1536.Idx → EReal) (k : Fin 1536) (ch : Fin 3) (blk : Fin 512) :
    wcatOf Wb Wi (ix2 k (⟨ch.val * 512 + blk.val, by have := ch.isLt; have := blk.isLt; omega⟩ : Fin 3072)) = Wb (ix2 (col blk ch) k) := by
  unfold wcatOf
  refine (concatenate_pair_apply_left (1 : Fin 2) _ _ concatenates_S1536x1536_S1536x1536_S1536x3072_d1
    (ix2 k (⟨ch.val * 512 + blk.val, by have := ch.isLt; have := blk.isLt; omega⟩ : Fin 3072)) rfl (ix2 k (cmcol ch blk))
    (fun b => match b with
      | ⟨0, _⟩ => rfl
      | ⟨1, _⟩ => rfl)).trans ?_
  show transpose S1536x1536 [1, 0] (rowsCm Wb) transposes_S1536x1536_S1536x1536_1_0 (ix2 k (cmcol ch blk)) = _
  rw [transpose_apply _ _ _ (ix2 k (cmcol ch blk)) (ix2 (cmcol ch blk) k) (fun b => match b with
      | ⟨0, _⟩ => rfl
      | ⟨1, _⟩ => rfl), rowsCm_apply]

/-- Its last 1536 columns: column `1536 + ch·512 + blk` is row `3·blk + ch` of the injection weights. -/
theorem wcat_right (Wb Wi : S1536x1536.Idx → EReal) (k : Fin 1536) (ch : Fin 3) (blk : Fin 512) :
    wcatOf Wb Wi (ix2 k (⟨1536 + (ch.val * 512 + blk.val), by have := ch.isLt; have := blk.isLt; omega⟩ : Fin 3072)) = Wi (ix2 (col blk ch) k) := by
  unfold wcatOf
  refine (concatenate_pair_apply_right (1 : Fin 2) _ _ concatenates_S1536x1536_S1536x1536_S1536x3072_d1
    (ix2 k (⟨1536 + (ch.val * 512 + blk.val), by have := ch.isLt; have := blk.isLt; omega⟩ : Fin 3072)) rfl rfl (ix2 k (cmcol ch blk))
    (fun b hb => match b with
      | ⟨0, _⟩ => rfl
      | ⟨1, _⟩ => absurd rfl hb)
    (by show ch.val * 512 + blk.val + 1536 = 1536 + (ch.val * 512 + blk.val); omega)).trans ?_
  show transpose S1536x1536 [1, 0] (rowsCm Wi) transposes_S1536x1536_S1536x1536_1_0 (ix2 k (cmcol ch blk)) = _
  rw [transpose_apply _ _ _ (ix2 k (cmcol ch blk)) (ix2 (cmcol ch blk) k) (fun b => match b with
      | ⟨0, _⟩ => rfl
      | ⟨1, _⟩ => rfl), rowsCm_apply]

/-- The bias operand's first 1536 entries. -/
theorem bcat_left (bb bi : S1536.Idx → EReal) (ch : Fin 3) (blk : Fin 512) :
    bcatOf bb bi (ix2 (0 : Fin 1) (⟨ch.val * 512 + blk.val, by have := ch.isLt; have := blk.isLt; omega⟩ : Fin 3072)) = bb (ix1 (col blk ch)) := by
  have hc := ch.isLt; have hb := blk.isLt
  unfold bcatOf
  rw [shapeCast_apply _ _ _ (ix1 (⟨ch.val * 512 + blk.val, by omega⟩ : Fin 3072)) (by
      rw [Shape.rowMajor_val_one, Shape.rowMajor_val_two]
      show ch.val * 512 + blk.val = 0 * 3072 + (ch.val * 512 + blk.val); omega)]
  refine (concatenate_pair_apply_left (0 : Fin 1) _ _ concatenates_S1536_S1536_S3072_d0
    (ix1 (⟨ch.val * 512 + blk.val, by omega⟩ : Fin 3072)) rfl (ix1 (cmcol ch blk))
    (fun b => match b with
      | ⟨0, _⟩ => rfl)).trans ?_
  exact biasCm_apply bb ch blk

/-- Its last 1536 entries. -/
theorem bcat_right (bb bi : S1536.Idx → EReal) (ch : Fin 3) (blk : Fin 512) :
    bcatOf bb bi (ix2 (0 : Fin 1) (⟨1536 + (ch.val * 512 + blk.val), by have := ch.isLt; have := blk.isLt; omega⟩ : Fin 3072)) = bi (ix1 (col blk ch)) := by
  have hc := ch.isLt; have hb := blk.isLt
  unfold bcatOf
  rw [shapeCast_apply _ _ _ (ix1 (⟨1536 + (ch.val * 512 + blk.val), by omega⟩ : Fin 3072)) (by
      rw [Shape.rowMajor_val_one, Shape.rowMajor_val_two]
      show 1536 + (ch.val * 512 + blk.val) = 0 * 3072 + (1536 + (ch.val * 512 + blk.val)); omega)]
  refine (concatenate_pair_apply_right (0 : Fin 1) _ _ concatenates_S1536_S1536_S3072_d0
    (ix1 (⟨1536 + (ch.val * 512 + blk.val), by omega⟩ : Fin 3072)) rfl rfl (ix1 (cmcol ch blk))
    (fun b hb => match b with
      | ⟨0, _⟩ => absurd rfl hb)
    (by show ch.val * 512 + blk.val + 1536 = 1536 + (ch.val * 512 + blk.val); omega)).trans ?_
  exact biasCm_apply bi ch blk

theorem V_state : (V m c main_v2 : S8192x1536.Idx → EReal) = hcmOf (m ((c : Thread nD τ).loc main_arg1)) := by
  show StableHlo.after hostOps0 (fun b => m (c, b)) (Proc.devRef .tc main_v2) = _
  after_results
  rfl

theorem V_decayBias : (V m c main_v22 : S1x1.Idx → EReal)
    = shapeCast S1x1 (m ((c : Thread nD τ).loc main_arg5)) shapeCasts_S1_S1x1 := by
  show StableHlo.after hostOps0 (fun b => m (c, b)) (Proc.devRef .tc main_v22) = _
  after_results
  rfl

theorem V_bias : (V m c main_v21 : S1x3072.Idx → EReal)
    = bcatOf (m ((c : Thread nD τ).loc main_arg3)) (m ((c : Thread nD τ).loc main_arg7)) := by
  show StableHlo.after hostOps0 (fun b => m (c, b)) (Proc.devRef .tc main_v21) = _
  after_results
  rfl

theorem V_weights : (V m c main_v19 : S1536x3072.Idx → EReal)
    = wcatOf (m ((c : Thread nD τ).loc main_arg2)) (m ((c : Thread nD τ).loc main_arg6)) := by
  show StableHlo.after hostOps0 (fun b => m (c, b)) (Proc.devRef .tc main_v19) = _
  after_results
  rfl

end Operands

end Cert.KernelIdeal.Prelude

end
-- ==== Proof.KernelArray.lean ====
/-
  From the kernel's blocks to its result array, and through the host lines after the launch.

  Grid point `t` of 32 works on rows `256 t … 256 t + 255`: its `x` block and its channel-major state block are
  those rows, the four small operands are whole at every point, and its output block is written back to those rows.
  An output entry depends on its own row only, so block `t` of the channel-major result array (`cmFn`) is the block
  function of the point's operand blocks; the 32 row blocks cover the array; the host lines after the launch undo the
  channel-major order of the columns; and with the operands as the host lines before the launch made them, the
  channel-major result at column `ch·512 + blk` is `Cert.Quat.out` at block `blk`, channel `ch`.
-/
import proofs.«152497_j17102559773341_2_alg».proof.Proof.Gen.KernelIdeal.Frame
import proofs.«152497_j17102559773341_2_alg».proof.Proof.KernelBlock
import proofs.«152497_j17102559773341_2_alg».proof.Proof.KernelPrelude
import Idealize.ShloMosaic.Lib.StableHlo.Run
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Block Cert.KernelIdeal.Prelude Cert.Quat
open scoped BigOperators

/-! ## The channel-major result over whole arrays -/

/-- Entry `(r, n)` of the channel-major result: the channel-major cell of row `r`, channel `n / 512`, block `n % 512`. -/
def cmFn (X H : S8192x1536.Idx → EReal) (Wc : S1536x3072.Idx → EReal) (bc : S1x3072.Idx → EReal)
    (wd : S1x1536.Idx → EReal) (bd : S1x1.Idx → EReal) : S8192x1536.Idx → EReal := fun i =>
  cmCell (fun k => X (ix2 (i 0) k)) (fun k => H (ix2 (i 0) k)) Wc bc wd bd
    ⟨(i 1).val / 512, by have := idx2_lt1 i; omega⟩ ⟨(i 1).val % 512, by omega⟩

/-- Rows `256 T … 256 T + 255` of the channel-major result are the block function of those rows of `X` and `H`. -/
theorem block_of_array (X H : S8192x1536.Idx → EReal) (Wc : S1536x3072.Idx → EReal) (bc : S1x3072.Idx → EReal)
    (wd : S1x1536.Idx → EReal) (bd : S1x1.Idx → EReal)
    (x0 x1 : Vec Ideal S256x1536 .f32) (x2 : Vec Ideal S1536x3072 .bf16) (x3 : Vec Ideal S1x3072 .f32)
    (x4 : Vec Ideal S1x1536 .f32) (x5 : Vec Ideal S1x1 .f32) (T : Fin 32)
    (h0 : ∀ (p : Fin 256) (k : Fin 1536), x0 (ix2 p k) = X (ix2 (⟨T.val * 256 + p.val, by have := T.isLt; have := p.isLt; omega⟩ : Fin 8192) k))
    (h1 : ∀ (p : Fin 256) (k : Fin 1536), x1 (ix2 p k) = H (ix2 (⟨T.val * 256 + p.val, by have := T.isLt; have := p.isLt; omega⟩ : Fin 8192) k))
    (h2 : x2 = Wc) (h3 : x3 = bc) (h4 : x4 = wd) (h5 : x5 = bd) (p : Fin 256) (n : Fin 1536) :
    blockFn x0 x1 x2 x3 x4 x5 (ix2 p n)
      = cmFn X H Wc bc wd bd (ix2 (⟨T.val * 256 + p.val, by have := T.isLt; have := p.isLt; omega⟩ : Fin 8192) n) := by
  unfold blockFn cmFn
  rw [h2, h3, h4, h5, show (fun k => x0 (ix2 ((ix2 p n : S256x1536.Idx) 0) k)) = fun k => X (ix2 (⟨T.val * 256 + p.val, by have := T.isLt; have := p.isLt; omega⟩ : Fin 8192) k) from funext (h0 p),
    show (fun k => x1 (ix2 ((ix2 p n : S256x1536.Idx) 0) k)) = fun k => H (ix2 (⟨T.val * 256 + p.val, by have := T.isLt; have := p.isLt; omega⟩ : Fin 8192) k) from funext (h1 p)]

section Run
variable (m : (ℓ : Loc nD τ sig) → Buf (Elt Ideal) ℓ) (ρ : Dev nD → PrngReg)

/-- The printed index maps over the grid: the two row-blocked inputs and the output are at block row `t`, column block
    `0`; the four small operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the channel-major result of the arrays as the launch finds them. -/
theorem flushed_eq (c : Dev nD) (t : Fin cfg0.N) :
    (dats m 0 c).flushed 6 t = ((cfg0.win 6).blk t).view.read (Elt Ideal)
      (cmFn (V m c main_arg0) (V m c main_v2) (V m c main_v19) (V m c main_v21) (V m c main_arg4) (V m c main_v22)) := by
  show (cfg0.win 6).cut (grid0.coords t) ((dats m 0 c).after 6 t) = _
  rw [after0_6, block_eq]
  obtain ⟨a0, a1, b0, b1, c0, c1, d0, d1, e0, e1, f0, f1, g0, g1⟩ := idx_facts t
  have ht : t.val < 32 := by have h := t.isLt; have hN : cfg0.N = 32 := N_0; omega
  funext j
  obtain ⟨p, n, rfl⟩ : ∃ (p : Fin 256) (n : Fin 1536), j = ix2 p n := ⟨j 0, j 1, eq_ix2 j⟩
  have hp := p.isLt; have hn := n.isLt
  refine (block_of_array (V m c main_arg0) (V m c main_v2) (V m c main_v19) (V m c main_v21) (V m c main_arg4) (V m c main_v22)
    (iblk m c 0 t) (iblk m c 1 t) (iblk m c 2 t) (iblk m c 3 t) (iblk m c 4 t) (iblk m c 5 t) ⟨t.val, ht⟩ ?_ ?_ ?_ ?_ ?_ ?_ p n).trans ?_
  · intro p k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 256 + 1 * p.val = t.val * 256 + p.val; omega
    | ⟨1, _⟩ => show win0_0.index t (1 : Fin 2) * 1536 + 1 * k.val = k.val; omega
  · intro p k
    show V m c main_v2 (((cfg0.win 1).blk t).view.emb (ix2 p k)) = V m c main_v2 _
    refine congrArg (V m c main_v2) (funext fun a => Fin.ext ?_)
    match a with
    | ⟨0, _⟩ => show win0_1.index t (0 : Fin 2) * 256 + 1 * p.val = t.val * 256 + p.val; omega
    | ⟨1, _⟩ => show win0_1.index t (1 : Fin 2) * 1536 + 1 * k.val = k.val; omega
  · funext y
    show V m c main_v19 (((cfg0.win 2).blk t).view.emb y) = V m c main_v19 y
    refine congrArg (V m c main_v19) (funext fun a => Fin.ext ?_)
    match a with
    | ⟨0, _⟩ => show win0_2.index t (0 : Fin 2) * 1536 + 1 * (y 0).val = (y 0).val; omega
    | ⟨1, _⟩ => show win0_2.index t (1 : Fin 2) * 3072 + 1 * (y 1).val = (y 1).val; omega
  · funext y
    show V m c main_v21 (((cfg0.win 3).blk t).view.emb y) = V m c main_v21 y
    refine congrArg (V m c main_v21) (funext fun a => Fin.ext ?_)
    match a with
    | ⟨0, _⟩ => show win0_3.index t (0 : Fin 2) * 1 + 1 * (y 0).val = (y 0).val; omega
    | ⟨1, _⟩ => show win0_3.index t (1 : Fin 2) * 3072 + 1 * (y 1).val = (y 1).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 1 + 1 * (y 0).val = (y 0).val; omega
    | ⟨1, _⟩ => show win0_4.index t (1 : Fin 2) * 1536 + 1 * (y 1).val = (y 1).val; omega
  · funext y
    show V m c main_v22 (((cfg0.win 5).blk t).view.emb y) = V m c main_v22 y
    refine congrArg (V m c main_v22) (funext fun a => Fin.ext ?_)
    match a with
    | ⟨0, _⟩ => show win0_5.index t (0 : Fin 2) * 1 + 1 * (y 0).val = (y 0).val; omega
    | ⟨1, _⟩ => show win0_5.index t (1 : Fin 2) * 1 + 1 * (y 1).val = (y 1).val; omega
  · show cmFn _ _ _ _ _ _ _ = cmFn (V m c main_arg0) (V m c main_v2) (V m c main_v19) (V m c main_v21) (V m c main_arg4) (V m c main_v22)
      (((cfg0.win 6).blk t).view.emb (ix2 p n))
    refine congrArg (cmFn (V m c main_arg0) (V m c main_v2) (V m c main_v19) (V m c main_v21) (V m c main_arg4) (V m c main_v22))
      (funext fun a => Fin.ext ?_)
    match a with
    | ⟨0, _⟩ => show t.val * 256 + p.val = win0_6.index t (0 : Fin 2) * 256 + 1 * p.val; omega
    | ⟨1, _⟩ => show n.val = win0_6.index t (1 : Fin 2) * 1536 + 1 * n.val; omega

/-- An entry of the result array is in point `t`'s block iff each coordinate is in the block's range. -/
theorem mem_blk (t : Fin cfg0.N) (i : S8192x1536.Idx) :
    i ∈ ((cfg0.win 6).blk t).view.set ↔ ∀ a : Fin 2, win0_6.index t a * S256x1536.size a ≤ (i a).val
      ∧ (i a).val < win0_6.index t a * S256x1536.size a + S256x1536.size a := by
  show i ∈ ((View.whole main_v23).slice (win0_6.rect t)).set ↔ _
  rw [View.set_slice_whole, Rect.mem_set_unit]
  exact Iff.rfl

/-- The 32 row blocks cover the result array: row `r` is in block `r / 256`. -/
theorem cover (i : S8192x1536.Idx) : ∃ t : Fin cfg0.N, (cfg0.win 6).flush t = true ∧ i ∈ ((cfg0.win 6).blk t).view.set := by
  have h0 := idx2_lt0 i; have h1 := idx2_lt1 i
  have hN : cfg0.N = 32 := N_0
  obtain ⟨t, ht⟩ : ∃ t : Fin cfg0.N, t.val = (i 0).val / 256 := ⟨⟨(i 0).val / 256, by rw [hN]; omega⟩, rfl⟩
  refine ⟨t, flush0_6 t, ?_⟩
  rw [mem_blk]
  obtain ⟨-, -, -, -, -, -, -, -, -, -, -, -, g0, g1⟩ := idx_facts t
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1536 ≤ (i 1).val ∧ (i 1).val < win0_6.index t (1 : Fin 2) * 1536 + 1536
    omega

/-- The result array of the launch: the channel-major result of the arrays as the launch finds them. -/
theorem final (c : Dev nD) : (dats m 0 c).arrAt 6 cfg0.N
    = cmFn (V m c main_arg0) (V m c main_v2) (V m c main_v19) (V m c main_v21) (V m c main_arg4) (V m c main_v22) :=
  (dats m 0 c).arrAt_eq_of_cover 6 _ (fun t _ => flushed_eq m c t) cover

/-! ## The host lines after the launch -/

/-- Channel-major columns back to blocks of three: `[8192, 1536] → [8192, 3, 512] → [8192, 512, 3] → [8192, 1536]`. -/
def untr {α : Type} (A : S8192x1536.Idx → α) : S8192x1536.Idx → α :=
  shapeCast S8192x1536 (transpose S8192x512x3 [0, 2, 1] (shapeCast S8192x3x512 A shapeCasts_S8192x1536_S8192x3x512)
    transposes_S8192x3x512_S8192x512x3_0_2_1) shapeCasts_S8192x512x3_S8192x1536

theorem untr_apply {α : Type} (A : S8192x1536.Idx → α) (r : Fin 8192) (blk : Fin 512) (ch : Fin 3) :
    untr A (ix2 r (col blk ch)) = A (ix2 r (cmcol ch blk)) := by
  have hc := ch.isLt; have hb := blk.isLt
  unfold untr
  rw [shapeCast_apply _ _ (ix2 r (col blk ch)) (ix3 r blk ch) (by
      rw [Shape.rowMajor_val_three, Shape.rowMajor_val_two]
      show (r.val * 512 + blk.val) * 3 + ch.val = r.val * 1536 + (3 * blk.val + ch.val); omega),
    transpose_apply _ _ _ (ix3 r blk ch) (ix3 r ch blk) (fun b => match b with
      | ⟨0, _⟩ => rfl
      | ⟨1, _⟩ => rfl
      | ⟨2, _⟩ => rfl),
    shapeCast_apply _ _ (ix3 r ch blk) (ix2 r (cmcol ch blk)) (by
      rw [Shape.rowMajor_val_two, Shape.rowMajor_val_three]
      show r.val * 1536 + (ch.val * 512 + blk.val) = (r.val * 3 + ch.val) * 512 + blk.val; omega)]

/-- @main's result: the launch's result array with its columns put back. -/
theorem tail_eq (c : Dev nD) :
    (Pipeline.afterTail₀ cfgs (dats m) 0 (V0 m) [hostOps1] c main_v26 : S8192x1536.Idx → EReal)
      = untr ((dats m 0 c).arrAt 6 cfg0.N) := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v23)
      = (dats m 0 c).arrAt 6 cfg0.N from Pipeline.withArrays_arr spec0 launch0.win.arr_inj c _ _ 6]
  rfl

/-! ## The channel-major result of the host-made operands is the update -/

theorem gateRow_eq (x : S8192x1536.Idx → EReal) (Wd : S1x1536.Idx → EReal) (bd : S1.Idx → EReal) (r : Fin 8192) :
    gateRow (fun k => x (ix2 r k)) Wd (shapeCast S1x1 bd shapeCasts_S1_S1x1) = gate x Wd bd r := by
  unfold gateRow gate
  rw [shapeCast_apply bd shapeCasts_S1_S1x1 (ix2 (0 : Fin 1) (0 : Fin 1)) (ix1 (0 : Fin 1)) (by
    rw [Shape.rowMajor_val_one, Shape.rowMajor_val_two]; rfl)]

theorem proj_left (x : S8192x1536.Idx → EReal) (Wb Wi : S1536x1536.Idx → EReal) (bb bi : S1536.Idx → EReal) (r : Fin 8192)
    (ch : Fin 3) (blk : Fin 512) (n : Fin 3072) (hn : n.val = ch.val * 512 + blk.val) :
    proj (fun k => x (ix2 r k)) (wcatOf Wb Wi) (bcatOf bb bi) n = lin x Wb bb r (col blk ch) := by
  have hc := ch.isLt; have hb := blk.isLt
  have e : n = ⟨ch.val * 512 + blk.val, by omega⟩ := Fin.ext hn
  rw [e]
  unfold proj lin
  rw [bcat_left]
  refine congrArg (· + bb (ix1 (col blk ch))) (Finset.sum_congr rfl fun k _ => ?_)
  rw [wcat_left]

theorem proj_right (x : S8192x1536.Idx → EReal) (Wb Wi : S1536x1536.Idx → EReal) (bb bi : S1536.Idx → EReal) (r : Fin 8192)
    (ch : Fin 3) (blk : Fin 512) (n : Fin 3072) (hn : n.val = 1536 + (ch.val * 512 + blk.val)) :
    proj (fun k => x (ix2 r k)) (wcatOf Wb Wi) (bcatOf bb bi) n = lin x Wi bi r (col blk ch) := by
  have hc := ch.isLt; have hb := blk.isLt
  have e : n = ⟨1536 + (ch.val * 512 + blk.val), by omega⟩ := Fin.ext hn
  rw [e]
  unfold proj lin
  rw [bcat_right]
  refine congrArg (· + bi (ix1 (col blk ch))) (Finset.sum_congr rfl fun k _ => ?_)
  rw [wcat_right]

/-- With the operands as the host lines before the launch make them, the channel-major result at column
    `ch·512 + blk` is the update at block `blk`, channel `ch`. -/
theorem cm_eq_out (x h : S8192x1536.Idx → EReal) (Wb : S1536x1536.Idx → EReal) (bb : S1536.Idx → EReal)
    (Wd : S1x1536.Idx → EReal) (bd : S1.Idx → EReal) (Wi : S1536x1536.Idx → EReal) (bi : S1536.Idx → EReal)
    (r : Fin 8192) (blk : Fin 512) (ch : Fin 3) :
    cmFn x (hcmOf h) (wcatOf Wb Wi) (bcatOf bb bi) Wd (shapeCast S1x1 bd shapeCasts_S1_S1x1) (ix2 r (cmcol ch blk))
      = out x h Wb bb Wd bd Wi bi r blk ch := by
  have hc := ch.isLt; have hb := blk.isLt
  unfold cmFn
  refine (congrArg₂ (cmCell (fun k => x (ix2 r k)) (fun k => hcmOf h (ix2 r k)) (wcatOf Wb Wi) (bcatOf bb bi) Wd
      (shapeCast S1x1 bd shapeCasts_S1_S1x1))
    (Fin.ext (by show (ch.val * 512 + blk.val) / 512 = ch.val; omega) : (⟨(ch.val * 512 + blk.val) / 512, by omega⟩ : Fin 3) = ch)
    (Fin.ext (by show (ch.val * 512 + blk.val) % 512 = blk.val; omega) : (⟨(ch.val * 512 + blk.val) % 512, by omega⟩ : Fin 512) = blk)).trans ?_
  unfold cmCell out
  rw [gateRow_eq,
    proj_left x Wb Wi bb bi r 0 blk _ (by show 0 + blk.val = 0 * 512 + blk.val; omega),
    proj_left x Wb Wi bb bi r 1 blk _ (by show 512 + blk.val = 1 * 512 + blk.val; omega),
    proj_left x Wb Wi bb bi r 2 blk _ (by show 1024 + blk.val = 2 * 512 + blk.val; omega),
    proj_right x Wb Wi bb bi r ch blk _ rfl,
    show slab' 0 (by omega) blk = cmcol 0 blk from Fin.ext (by show 0 + blk.val = 0 * 512 + blk.val; omega),
    show slab' 512 (by omega) blk = cmcol 1 blk from Fin.ext (by show 512 + blk.val = 1 * 512 + blk.val; omega),
    show slab' 1024 (by omega) blk = cmcol 2 blk from Fin.ext (by show 1024 + blk.val = 2 * 512 + blk.val; omega)]
  simp only [hcmOf_apply]

/-- @main's result is `G` of the arguments. -/
theorem result (c : Dev nD) :
    (Pipeline.afterTail₀ cfgs (dats m) 0 (V0 m) [hostOps1] c main_v26 : S8192x1536.Idx → EReal)
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [tail_eq, final, V_main_arg0, V_main_arg4, V_state, V_weights, V_bias, V_decayBias]
  funext i
  obtain ⟨r, cc, rfl⟩ : ∃ (r : Fin 8192) (cc : Fin 1536), i = ix2 r cc := ⟨i 0, i 1, eq_ix2 i⟩
  have hcc := cc.isLt
  have e : cc = col ⟨cc.val / 3, by omega⟩ ⟨cc.val % 3, by omega⟩ :=
    Fin.ext (by show cc.val = 3 * (cc.val / 3) + cc.val % 3; omega)
  refine (congrArg (fun z => untr _ (ix2 r z)) e).trans ?_
  rw [untr_apply]
  exact cm_eq_out _ _ _ _ _ _ _ _ r _ _

/-- The kernel program's run: every weakly fair execution terminates, @main's result is `G` of the arguments, and the
    arguments are unchanged. -/
theorem run : θ_run defs (onTc (τ := τ) (main (F := Ideal))) ⟨m, fun _ => 0, ρ⟩ (fun r => ∀ c : Dev nD,
      r.2.mem ((c.tc : Thread nD τ).loc main_v26)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v26 (Pipeline.mem_restRefs_of main_v26 (by decide) (by decide))).trans (result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Run

end Cert.KernelIdeal.ArrayValue

end
-- ==== Proof.lean ====
/-
  One step of a block-diagonal quaternion state-space layer: a Pallas kernel against its jnp reference.

  Both programs compute, for every batch row and every block of three consecutive channels, the state triple rotated
  by the unit quaternion of a bivector (an affine map of the row), scaled by a logistic gate of the row, plus an
  injection (another affine map of the row): `Cert.Quat.G` (Proof/QuatSpec.lean). They differ in arrangement only.

  The kernel permutes columns to CHANNEL-MAJOR order on the host — the state, the rows of both weight matrices and
  both biases — fuses the two projections into one matrix product over a 3072-column operand, runs a grid of 32 points
  of 256 rows each, every point writing its output block as three 512-column slabs, and un-permutes the result's columns
  on the host. The reference keeps the channels of a block side by side and takes the bivector's length as the square
  root of a three-term sum. On the extended reals a change of float format is the identity, a matrix product into a
  zero accumulator and a lane sum from zero are plain sums, the kernel's logistic is the reference's `1 / (1 + e^(-z))`,
  its product with one half the reference's quotient by two, and its difference from zero the reference's negation; no
  law used needs the inputs finite, so the precondition is never opened.

  The three frames are the generated ones (the reference's is its generated run with the result dropped); the ideal pass
  rewrote nothing, so the kernel's idealization is its own text; and the two idealized programs end with the same
  result because each ends with `G` of its arguments (Proof/KernelArray.lean `run`, Proof/RefValue.lean `result_eq`).
-/
import proofs.«152497_j17102559773341_2_alg».proof.Defs
import proofs.«152497_j17102559773341_2_alg».proof.Proof.Gen.Kernel
import proofs.«152497_j17102559773341_2_alg».proof.Proof.Gen.Kernel.Skeleton
import proofs.«152497_j17102559773341_2_alg».proof.Proof.Gen.Kernel.Launch
import proofs.«152497_j17102559773341_2_alg».proof.Proof.Gen.Kernel.Points
import proofs.«152497_j17102559773341_2_alg».proof.Proof.Gen.Kernel.Frame
import proofs.«152497_j17102559773341_2_alg».proof.Proof.Gen.KernelIdeal
import proofs.«152497_j17102559773341_2_alg».proof.Proof.Gen.KernelIdeal.Skeleton
import proofs.«152497_j17102559773341_2_alg».proof.Proof.Gen.KernelIdeal.Launch
import proofs.«152497_j17102559773341_2_alg».proof.Proof.Gen.KernelIdeal.Points
import proofs.«152497_j17102559773341_2_alg».proof.Proof.Gen.KernelIdeal.Frame
import proofs.«152497_j17102559773341_2_alg».proof.Proof.Gen.ReferenceIdeal
import proofs.«152497_j17102559773341_2_alg».proof.Proof.Gen.Pre_finite_inputs
import proofs.«152497_j17102559773341_2_alg».proof.Proof.Gen.ReferenceIdeal.Run
import proofs.«152497_j17102559773341_2_alg».proof.Proof.Gen.ReferenceIdeal.Read
import proofs.«152497_j17102559773341_2_alg».proof.Proof.RefValue
import proofs.«152497_j17102559773341_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, both idealized programs end with `Cert.Quat.G` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
